-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x256x512 : Shape := ⟨4, ![8, 32, 256, 512]⟩
abbrev S8x512 : Shape := ⟨2, ![8, 512]⟩
abbrev S13x5 : Shape := ⟨2, ![13, 5]⟩
abbrev S_ : Shape := ⟨0, ![]⟩
abbrev S8x512x1 : Shape := ⟨3, ![8, 512, 1]⟩
abbrev S8x512x5 : Shape := ⟨3, ![8, 512, 5]⟩

class Facts : Prop where
  bcast_S_S8x32x256x512 : S_.BroadcastsInDim S8x32x256x512 (![] : Fin 0 → Fin S8x32x256x512.rank)
  reducesTo_S8x32x256x512_S_d0_1_2_3 : S8x32x256x512.ReducesTo [0, 1, 2, 3] S_
  h_S_ : 0 < S_.numel
  bcast_S_S13x5 : S_.BroadcastsInDim S13x5 (![] : Fin 0 → Fin S13x5.rank)
  reducesTo_S13x5_S_d0_1 : S13x5.ReducesTo [0, 1] S_
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  slices_S8x512x5_S8x512x1_0_0_4 : S8x512x5.Slices ![0, 0, 4] S8x512x1
  shapeCasts_S8x512x1_S8x512 : S8x512x1.ShapeCasts S8x512
  reducesTo_S8x512_S_d0_1 : S8x512.ReducesTo [0, 1] S_
  gather_S13x5_S8x512x1_S8x512x5_2_0_n_n_0_2_15_wf : GatherDims.WF S13x5 S8x512x1 S8x512x5 [2] [0] [] [0] [] 2 ![1, 5]

variable [Facts]

def gather_S13x5_S8x512x1_S8x512x5_2_0_n_n_0_2_15 : GatherDims S13x5 S8x512x1 S8x512x5 where
  offsetDims := [2]
  collapsedSliceDims := [0]
  operandBatchingDims := []
  startIndicesBatchingDims := []
  startIndexMap := [0]
  indexVectorDim := 2
  sliceSizes := ![1, 5]
  wf := gather_S13x5_S8x512x1_S8x512x5_2_0_n_n_0_2_15_wf
def fn_part1 {F : FTy → Type} [FloatOps F] (main_v8 : IVec S_ 1) (main_v17 : FVec F S8x512 .f32) : IVec S_ 1 :=
  let main_cst_4 : FVec F S_ .f32 := constant S_ .f32 0x00000000#32
  let main_v18 : FVec F S8x512 .f32 := broadcastInDim S8x512 ![] bcast_S_S8x512 main_cst_4
  let main_v19 : IVec S8x512 1 := cmpf .une main_v17 main_v18
  let main_c_5 : IVec S_ 1 := constantI S_ 1 1#1
  let main_v20 : IVec S_ 1 := (fun x v => Host.reduce IntOp.andi x v reducesTo_S8x512_S_d0_1 h_S_) main_v19 main_c_5
  let main_v21 : IVec S_ 1 := andi main_v8 main_v20
  main_v21

def fn {F : FTy → Type} [FloatOps F] (main_arg0 : FVec F S8x32x256x512 .f32) (main_arg1 : IVec S8x512 32) (main_arg2 : FVec F S13x5 .f32) : IVec S_ 1 :=
  let main_v0 : FVec F S8x32x256x512 .f32 := Host.absf main_arg0
  let main_cst : FVec F S_ .f32 := constant S_ .f32 0x7F800000#32
  let main_v1 : FVec F S8x32x256x512 .f32 := broadcastInDim S8x32x256x512 ![] bcast_S_S8x32x256x512 main_cst
  let main_v2 : IVec S8x32x256x512 1 := cmpf .olt main_v0 main_v1
  let main_c : IVec S_ 1 := constantI S_ 1 1#1
  let main_v3 : IVec S_ 1 := (fun x v => Host.reduce IntOp.andi x v reducesTo_S8x32x256x512_S_d0_1_2_3 h_S_) main_v2 main_c
  let main_v4 : FVec F S13x5 .f32 := Host.absf main_arg2
  let main_cst_0 : FVec F S_ .f32 := constant S_ .f32 0x7F800000#32
  let main_v5 : FVec F S13x5 .f32 := broadcastInDim S13x5 ![] bcast_S_S13x5 main_cst_0
  let main_v6 : IVec S13x5 1 := cmpf .olt main_v4 main_v5
  let main_c_1 : IVec S_ 1 := constantI S_ 1 1#1
  let main_v7 : IVec S_ 1 := (fun x v => Host.reduce IntOp.andi x v reducesTo_S13x5_S_d0_1 h_S_) main_v6 main_c_1
  let main_v8 : IVec S_ 1 := andi main_v3 main_v7
  let main_c_2 : IVec S_ 32 := constantI S_ 32 0#32
  let main_v9 : IVec S8x512 32 := broadcastInDim S8x512 ![] bcast_S_S8x512 main_c_2
  let main_v10 : IVec S8x512 1 := cmpi .slt main_arg1 main_v9
  let main_c_3 : IVec S_ 32 := constantI S_ 32 13#32
  let main_v11 : IVec S8x512 32 := broadcastInDim S8x512 ![] bcast_S_S8x512 main_c_3
  let main_v12 : IVec S8x512 32 := addi main_arg1 main_v11
  let main_v13 : IVec S8x512 32 := select main_v10 main_v12 main_arg1
  let main_v14 : IVec S8x512x1 32 := broadcastInDim S8x512x1 ![0, 1] bcast_S8x512_S8x512x1_0_1 main_v13
  let main_v15 : FVec F S8x512x5 .f32 := (fun x i => Host.gather gather_S13x5_S8x512x1_S8x512x5_2_0_n_n_0_2_15 x i) main_arg2 main_v14
  let main_v16 : FVec F S8x512x1 .f32 := (extractStridedSlice S8x512x1 ![0, 0, 4] · slices_S8x512x5_S8x512x1_0_0_4) main_v15
  let main_v17 : FVec F S8x512 .f32 := shapeCast S8x512 main_v16 shapeCasts_S8x512x1_S8x512
  fn_part1 (F := F) main_v8 main_v17
-- ==== Kernel.lean ====
abbrev S8x32x256x512 : Shape := ⟨4, ![8, 32, 256, 512]⟩
abbrev S8x512 : Shape := ⟨2, ![8, 512]⟩
abbrev S13x5 : Shape := ⟨2, ![13, 5]⟩
abbrev S_ : Shape := ⟨0, ![]⟩
abbrev S8x512x1 : Shape := ⟨3, ![8, 512, 1]⟩
abbrev S8x512x5 : Shape := ⟨3, ![8, 512, 5]⟩
abbrev S8x1x512 : Shape := ⟨3, ![8, 1, 512]⟩
abbrev S8x5x512 : Shape := ⟨3, ![8, 5, 512]⟩
abbrev S8x5x1x512 : Shape := ⟨4, ![8, 5, 1, 512]⟩
abbrev S1x8x256x512 : Shape := ⟨4, ![1, 8, 256, 512]⟩
abbrev S1x5x1x512 : Shape := ⟨4, ![1, 5, 1, 512]⟩
abbrev S1x1x1x512 : Shape := ⟨4, ![1, 1, 1, 512]⟩

abbrev nBuf : Space → Nat
  | .hbm => 31
  | .vmem => 6
  | .smem => 0
  | _ => 0

abbrev bufTy : (tb : Table) → Fin (tcTables nBuf tb) → BufTy
  | .hbm, ⟨0, _⟩ => ⟨S8x32x256x512, .f32⟩
  | .hbm, ⟨1, _⟩ => ⟨S8x512, .i32⟩
  | .hbm, ⟨2, _⟩ => ⟨S13x5, .f32⟩
  | .hbm, ⟨3, _⟩ => ⟨S_, .i32⟩
  | .hbm, ⟨4, _⟩ => ⟨S8x512, .i32⟩
  | .hbm, ⟨5, _⟩ => ⟨S8x512, .i1⟩
  | .hbm, ⟨6, _⟩ => ⟨S_, .i32⟩
  | .hbm, ⟨7, _⟩ => ⟨S8x512, .i32⟩
  | .hbm, ⟨8, _⟩ => ⟨S8x512, .i32⟩
  | .hbm, ⟨9, _⟩ => ⟨S8x512, .i32⟩
  | .hbm, ⟨10, _⟩ => ⟨S8x512x1, .i32⟩
  | .hbm, ⟨11, _⟩ => ⟨S8x512x5, .f32⟩
  | .hbm, ⟨12, _⟩ => ⟨S8x512x1, .f32⟩
  | .hbm, ⟨13, _⟩ => ⟨S8x512, .f32⟩
  | .hbm, ⟨14, _⟩ => ⟨S8x512x1, .f32⟩
  | .hbm, ⟨15, _⟩ => ⟨S8x512, .f32⟩
  | .hbm, ⟨16, _⟩ => ⟨S8x512x1, .f32⟩
  | .hbm, ⟨17, _⟩ => ⟨S8x512, .f32⟩
  | .hbm, ⟨18, _⟩ => ⟨S8x512x1, .f32⟩
  | .hbm, ⟨19, _⟩ => ⟨S8x512, .f32⟩
  | .hbm, ⟨20, _⟩ => ⟨S8x512x1, .f32⟩
  | .hbm, ⟨21, _⟩ => ⟨S8x512, .f32⟩
  | .hbm, ⟨22, _⟩ => ⟨S8x512, .f32⟩
  | .hbm, ⟨23, _⟩ => ⟨S8x1x512, .f32⟩
  | .hbm, ⟨24, _⟩ => ⟨S8x1x512, .f32⟩
  | .hbm, ⟨25, _⟩ => ⟨S8x1x512, .f32⟩
  | .hbm, ⟨26, _⟩ => ⟨S8x1x512, .f32⟩
  | .hbm, ⟨27, _⟩ => ⟨S8x1x512, .f32⟩
  | .hbm, ⟨28, _⟩ => ⟨S8x5x512, .f32⟩
  | .hbm, ⟨29, _⟩ => ⟨S8x5x1x512, .f32⟩
  | .hbm, ⟨30, _⟩ => ⟨S8x32x256x512, .f32⟩
  | .local _ .vmem, ⟨0, _⟩ => ⟨S1x8x256x512, .f32⟩
  | .local _ .vmem, ⟨1, _⟩ => ⟨S1x8x256x512, .f32⟩
  | .local _ .vmem, ⟨2, _⟩ => ⟨S1x5x1x512, .f32⟩
  | .local _ .vmem, ⟨3, _⟩ => ⟨S1x5x1x512, .f32⟩
  | .local _ .vmem, ⟨4, _⟩ => ⟨S1x8x256x512, .f32⟩
  | .local _ .vmem, ⟨5, _⟩ => ⟨S1x8x256x512, .f32⟩
  | _, _ => ⟨S8x32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  slices_S8x512x5_S8x512x1_0_0_0 : S8x512x5.Slices ![0, 0, 0] S8x512x1
  shapeCasts_S8x512x1_S8x512 : S8x512x1.ShapeCasts S8x512
  slices_S8x512x5_S8x512x1_0_0_1 : S8x512x5.Slices ![0, 0, 1] S8x512x1
  slices_S8x512x5_S8x512x1_0_0_2 : S8x512x5.Slices ![0, 0, 2] S8x512x1
  slices_S8x512x5_S8x512x1_0_0_3 : S8x512x5.Slices ![0, 0, 3] S8x512x1
  slices_S8x512x5_S8x512x1_0_0_4 : S8x512x5.Slices ![0, 0, 4] S8x512x1
  bcast_S8x512_S8x1x512_0_2 : S8x512.BroadcastsInDim S8x1x512 (![0, 2] : Fin 2 → Fin S8x1x512.rank)
  concatenates_S8x1x512_S8x1x512_S8x1x512_S8x1x512_S8x1x512_S8x5x512_d1 : Shape.Concatenates [S8x1x512, S8x1x512, S8x1x512, S8x1x512, S8x1x512] S8x5x512 1
  bcast_S8x5x512_S8x5x1x512_0_1_3 : S8x5x512.BroadcastsInDim S8x5x1x512 (![0, 1, 3] : Fin 3 → Fin S8x5x1x512.rank)
  inb_S1x8x256x512_S1x8x256x512_0_0_0_0 : ∀ a, (![0, 0, 0, 0] : Fin 4 → Nat) a + S1x8x256x512.size a ≤ S1x8x256x512.size a
  h_S1x8x256x512 : 0 < S1x8x256x512.numel
  inb_S1x5x1x512_S1x5x1x512_0_0_0_0 : ∀ a, (![0, 0, 0, 0] : Fin 4 → Nat) a + S1x5x1x512.size a ≤ S1x5x1x512.size a
  h_S1x5x1x512 : 0 < S1x5x1x512.numel
  shapeCasts_S1x5x1x512_S1x5x1x512 : S1x5x1x512.ShapeCasts S1x5x1x512
  slices_S1x5x1x512_o0_0_0_0_S1x1x1x512 : S1x5x1x512.Slices ![0, 0, 0, 0] S1x1x1x512
  slices_S1x5x1x512_o0_1_0_0_S1x1x1x512 : S1x5x1x512.Slices ![0, 1, 0, 0] S1x1x1x512
  slices_S1x5x1x512_o0_2_0_0_S1x1x1x512 : S1x5x1x512.Slices ![0, 2, 0, 0] S1x1x1x512
  slices_S1x5x1x512_o0_3_0_0_S1x1x1x512 : S1x5x1x512.Slices ![0, 3, 0, 0] S1x1x1x512
  slices_S1x5x1x512_o0_4_0_0_S1x1x1x512 : S1x5x1x512.Slices ![0, 4, 0, 0] S1x1x1x512
  broadcasts_S1x1x1x512_S1x8x256x512 : S1x1x1x512.Broadcasts S1x8x256x512
  gather_S13x5_S8x512x1_S8x512x5_2_0_n_n_0_2_15_wf : GatherDims.WF S13x5 S8x512x1 S8x512x5 [2] [0] [] [0] [] 2 ![1, 5]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x256x512.size a ≤ S8x32x256x512.size a
  hwx0_0 : ∀ i : grid0.Coords, EltTy.bits .f32 = 32 ∨ (Rect.block (s := S8x32x256x512) S1x8x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5x1x512.size a ≤ S8x5x1x512.size a
  hwx0_1 : ∀ i : grid0.Coords, EltTy.bits .f32 = 32 ∨ (Rect.block (s := S8x5x1x512) S1x5x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x256x512.size a ≤ S8x32x256x512.size a
  hwx0_2 : ∀ i : grid0.Coords, EltTy.bits .f32 = 32 ∨ (Rect.block (s := S8x32x256x512) S1x8x256x512.size (cc0_transform_2 i) (hinb0_2 i)).WholeWords (EltTy.packing .f32)

variable [Facts₀]

def gather_S13x5_S8x512x1_S8x512x5_2_0_n_n_0_2_15 : GatherDims S13x5 S8x512x1 S8x512x5 where
  offsetDims := [2]
  collapsedSliceDims := [0]
  operandBatchingDims := []
  startIndicesBatchingDims := []
  startIndexMap := [0]
  indexVectorDim := 2
  sliceSizes := ![1, 5]
  wf := gather_S13x5_S8x512x1_S8x512x5_2_0_n_n_0_2_15_wf

abbrev win0_0 : Pipeline.Window sig grid0 :=
  Pipeline.Window.ofSpec (Memref.whole main_arg0) S1x8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S1x5x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x8x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x32x256x512 : Shape := ⟨4, ![8, 32, 256, 512]⟩
abbrev S8x512 : Shape := ⟨2, ![8, 512]⟩
abbrev S13x5 : Shape := ⟨2, ![13, 5]⟩
abbrev S_ : Shape := ⟨0, ![]⟩
abbrev S8x512x1 : Shape := ⟨3, ![8, 512, 1]⟩
abbrev S8x512x5 : Shape := ⟨3, ![8, 512, 5]⟩
abbrev S8x1x1x512x5 : Shape := ⟨5, ![8, 1, 1, 512, 5]⟩
abbrev S8x1x1x512x1 : Shape := ⟨5, ![8, 1, 1, 512, 1]⟩
abbrev S8x1x1x512 : Shape := ⟨4, ![8, 1, 1, 512]⟩

abbrev nBuf : Space → Nat
  | .hbm => 50
  | .vmem => 0
  | .smem => 0
  | _ => 0

abbrev bufTy : (tb : Table) → Fin (tcTables nBuf tb) → BufTy
  | .hbm, ⟨0, _⟩ => ⟨S8x32x256x512, .f32⟩
  | .hbm, ⟨1, _⟩ => ⟨S8x512, .i32⟩
  | .hbm, ⟨2, _⟩ => ⟨S13x5, .f32⟩
  | .hbm, ⟨3, _⟩ => ⟨S_, .i32⟩
  | .hbm, ⟨4, _⟩ => ⟨S8x512, .i32⟩
  | .hbm, ⟨5, _⟩ => ⟨S8x512, .i1⟩
  | .hbm, ⟨6, _⟩ => ⟨S_, .i32⟩
  | .hbm, ⟨7, _⟩ => ⟨S8x512, .i32⟩
  | .hbm, ⟨8, _⟩ => ⟨S8x512, .i32⟩
  | .hbm, ⟨9, _⟩ => ⟨S8x512, .i32⟩
  | .hbm, ⟨10, _⟩ => ⟨S8x512x1, .i32⟩
  | .hbm, ⟨11, _⟩ => ⟨S8x512x5, .f32⟩
  | .hbm, ⟨12, _⟩ => ⟨S8x1x1x512x5, .f32⟩
  | .hbm, ⟨13, _⟩ => ⟨S8x1x1x512x1, .f32⟩
  | .hbm, ⟨14, _⟩ => ⟨S8x1x1x512, .f32⟩
  | .hbm, ⟨15, _⟩ => ⟨S8x1x1x512x1, .f32⟩
  | .hbm, ⟨16, _⟩ => ⟨S8x1x1x512, .f32⟩
  | .hbm, ⟨17, _⟩ => ⟨S8x1x1x512x1, .f32⟩
  | .hbm, ⟨18, _⟩ => ⟨S8x1x1x512, .f32⟩
  | .hbm, ⟨19, _⟩ => ⟨S8x1x1x512x1, .f32⟩
  | .hbm, ⟨20, _⟩ => ⟨S8x1x1x512, .f32⟩
  | .hbm, ⟨21, _⟩ => ⟨S8x1x1x512x1, .f32⟩
  | .hbm, ⟨22, _⟩ => ⟨S8x1x1x512, .f32⟩
  | .hbm, ⟨23, _⟩ => ⟨S8x32x256x512, .f32⟩
  | .hbm, ⟨24, _⟩ => ⟨S8x32x256x512, .f32⟩
  | .hbm, ⟨25, _⟩ => ⟨S8x32x256x512, .f32⟩
  | .hbm, ⟨26, _⟩ => ⟨S8x32x256x512, .f32⟩
  | .hbm, ⟨27, _⟩ => ⟨S_, .f32⟩
  | .hbm, ⟨28, _⟩ => ⟨S8x32x256x512, .f32⟩
  | .hbm, ⟨29, _⟩ => ⟨S8x32x256x512, .f32⟩
  | .hbm, ⟨30, _⟩ => ⟨S8x32x256x512, .f32⟩
  | .hbm, ⟨31, _⟩ => ⟨S8x32x256x512, .f32⟩
  | .hbm, ⟨32, _⟩ => ⟨S8x32x256x512, .i1⟩
  | .hbm, ⟨33, _⟩ => ⟨S8x32x256x512, .f32⟩
  | .hbm, ⟨34, _⟩ => ⟨S8x32x256x512, .f32⟩
  | .hbm, ⟨35, _⟩ => ⟨S8x32x256x512, .f32⟩
  | .hbm, ⟨36, _⟩ => ⟨S8x32x256x512, .f32⟩
  | .hbm, ⟨37, _⟩ => ⟨S8x32x256x512, .f32⟩
  | .hbm, ⟨38, _⟩ => ⟨S8x32x256x512, .f32⟩
  | .hbm, ⟨39, _⟩ => ⟨S8x32x256x512, .f32⟩
  | .hbm, ⟨40, _⟩ => ⟨S8x32x256x512, .f32⟩
  | .hbm, ⟨41, _⟩ => ⟨S8x32x256x512, .f32⟩
  | .hbm, ⟨42, _⟩ => ⟨S8x32x256x512, .f32⟩
  | .hbm, ⟨43, _⟩ => ⟨S8x32x256x512, .f32⟩
  | .hbm, ⟨44, _⟩ => ⟨S8x32x256x512, .f32⟩
  | .hbm, ⟨45, _⟩ => ⟨S8x32x256x512, .f32⟩
  | .hbm, ⟨46, _⟩ => ⟨S8x32x256x512, .f32⟩
  | .hbm, ⟨47, _⟩ => ⟨S8x32x256x512, .f32⟩
  | .hbm, ⟨48, _⟩ => ⟨S8x32x256x512, .f32⟩
  | .hbm, ⟨49, _⟩ => ⟨S8x32x256x512, .f32⟩
  | _, _ => ⟨S8x32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512x5_S8x1x1x512x5_0_3_4 : S8x512x5.BroadcastsInDim S8x1x1x512x5 (![0, 3, 4] : Fin 3 → Fin S8x1x1x512x5.rank)
  slices_S8x1x1x512x5_S8x1x1x512x1_0_0_0_0_0 : S8x1x1x512x5.Slices ![0, 0, 0, 0, 0] S8x1x1x512x1
  shapeCasts_S8x1x1x512x1_S8x1x1x512 : S8x1x1x512x1.ShapeCasts S8x1x1x512
  slices_S8x1x1x512x5_S8x1x1x512x1_0_0_0_0_1 : S8x1x1x512x5.Slices ![0, 0, 0, 0, 1] S8x1x1x512x1
  slices_S8x1x1x512x5_S8x1x1x512x1_0_0_0_0_2 : S8x1x1x512x5.Slices ![0, 0, 0, 0, 2] S8x1x1x512x1
  slices_S8x1x1x512x5_S8x1x1x512x1_0_0_0_0_3 : S8x1x1x512x5.Slices ![0, 0, 0, 0, 3] S8x1x1x512x1
  slices_S8x1x1x512x5_S8x1x1x512x1_0_0_0_0_4 : S8x1x1x512x5.Slices ![0, 0, 0, 0, 4] S8x1x1x512x1
  bcast_S8x1x1x512_S8x32x256x512_0_1_2_3 : S8x1x1x512.BroadcastsInDim S8x32x256x512 (![0, 1, 2, 3] : Fin 4 → Fin S8x32x256x512.rank)
  bcast_S_S8x32x256x512 : S_.BroadcastsInDim S8x32x256x512 (![] : Fin 0 → Fin S8x32x256x512.rank)
  gather_S13x5_S8x512x1_S8x512x5_2_0_n_n_0_2_15_wf : GatherDims.WF S13x5 S8x512x1 S8x512x5 [2] [0] [] [0] [] 2 ![1, 5]

variable [Facts₀]

def gather_S13x5_S8x512x1_S8x512x5_2_0_n_n_0_2_15 : GatherDims S13x5 S8x512x1 S8x512x5 where
  offsetDims := [2]
  collapsedSliceDims := [0]
  operandBatchingDims := []
  startIndicesBatchingDims := []
  startIndexMap := [0]
  indexVectorDim := 2
  sliceSizes := ![1, 5]
  wf := gather_S13x5_S8x512x1_S8x512x5_2_0_n_n_0_2_15_wf

class Facts : Prop extends Facts₀ where

variable [Facts]
-- ==== Proof.RegionBits.lean ====
/-
  The frame of `Kernel`, at any float instance: @main is twenty-seven host operations — the fault-mode table's rows
  gathered by the mask, sliced into five parameter rows, the second divided by the fifth, the five stacked into one
  [8, 5, 1, 512] array — and then one region over the grid 8 × 4. At grid point (g, s) the body is handed the
  [1, 8, 256, 512] block (g, s) of z and the [1, 5, 1, 512] block g of the stacked parameters, and stores, through one
  rectangle that is its whole output block, one pure function of those two blocks. So every point terminates
  without a fault whatever the contents are, the two input blocks are left in place, and no host operation or
  write-back touches an argument array: each ends as it was launched.
-/
import proofs.«146256_j45406394253469_2_alg».proof.Proof.Gen.Kernel.Launch
import proofs.«146256_j45406394253469_2_alg».proof.Proof.Gen.Kernel.Skeleton
import proofs.«146256_j45406394253469_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the host operations that precede the region. -/
abbrev entry (c : Dev nD) (b : Ref sig .tc) : Buf (Elt F) ((c : Thread nD τ).loc b) :=
  StableHlo.after hostOps0 (fun b => m (c, b)) b

/-- No host operation leaves a buffer at unspecified contents. -/
theorem hostOps0_fresh : (hostOps0 : List (HloOp τ sig (Elt F))).Forall fun op => op.fresh = ∅ := by
  simp only [List.Forall]; repeat' constructor

/-- @main is the host operations and then the region. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- Every host operation writes its own result buffer, none of which is z: the region finds z as launched. -/
theorem entry_z (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- Nor is any the mask. -/
theorem entry_mask (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- Nor the fault-mode table. -/
theorem entry_table (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The blocks -/

/-- Window `w`'s block at grid point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-- The z window's staging buffer holds the point's block of z whenever the body leaves that block in place. -/
theorem z_staged {c : Dev nD} (dat : Dat τ (Elt F) Unit ℕ (UR sig nD τ) ℕ cfg0 c)
    (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)
/-- The parameter window is fetched only when the group g changes; in between its block index does not move, so its
    staging buffer holds the point's parameter block at every point all the same. -/
theorem params_staged {c : Dev nD} (dat : Dat τ (Elt F) Unit ℕ (UR sig nD τ) ℕ cfg0 c)
    (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)

/-! ## From the region's run to the argument arrays -/

/-- A run of @main to the pipeline's post leaves z at what the region found (an input window's array is never written
    back), the mask and the table — which no window stages — likewise, and the region found all three as launched. -/
theorem args_kept (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats 0 c).arrAt_in 0 rfl _).trans ((hA c 0).trans (entry_z m c))),
      ((h c).2 main_arg1 (Pipeline.mem_restRefs_of main_arg1 (by decide) (by decide))).trans (entry_mask m c),
      ((h c).2 main_arg2 (Pipeline.mem_restRefs_of main_arg2 (by decide) (by decide))).trans (entry_table m c)⟩) h

/-! ## What the body stores -/

/-- The whole z-shaped block, as a rectangle: what the body loads of z and what it stores of the result. -/
abbrev wholeZ : Rect S1x8x256x512 :=
  Rect.unit (s := S1x8x256x512) ![0, 0, 0, 0] S1x8x256x512.size inb_S1x8x256x512_S1x8x256x512_0_0_0_0
/-- The whole parameter block, as a rectangle. -/
abbrev wholeP : Rect S1x5x1x512 :=
  Rect.unit (s := S1x5x1x512) ![0, 0, 0, 0] S1x5x1x512.size inb_S1x5x1x512_S1x5x1x512_0_0_0_0

/-- The output window's staging buffer after the body: its one store, of the body's arithmetic on the two input blocks. -/
def stored (x0 : Vec F S1x8x256x512 .f32) (x1 : Vec F S1x5x1x512 .f32) : Vec F S1x8x256x512 .f32 :=
  View.canon [⟨wholeZ, k0_pay1 (View.ld x0 wholeZ) (View.ld x1 wholeP)⟩]

/-- That one store covers the buffer. -/
theorem stored_covers (p0 : Vec F S1x8x256x512 .f32) (y : S1x8x256x512.Idx) :
    ∃ pc ∈ ([⟨wholeZ, p0⟩] : List (View.Piece (Elt F) S1x8x256x512 .f32)), y ∈ pc.1.set :=
  View.cover_of_tiled [⟨wholeZ, p0⟩] S1x8x256x512.size (by rfl) y

/-! ## The body -/

set_option maxHeartbeats 1000000 in
/-- The body on whole staging buffers — the inputs' at contents `x0`, `x1`, the output's at anything — runs to its end
    with the inputs' as they were and the output's at `stored x0 x1`: three loads (the third, of the output buffer, is
    never used), one covering store. -/
theorem body_runs (c : Dev nD) (E : Set ℕ) (i : grid0.Coords)
    (arg2 : Memref sig .tc .vmem S1x8x256x512 .f32) (harg2 : arg2.IsWhole)
    (arg3 : Memref sig .tc .vmem S1x5x1x512 .f32) (harg3 : arg3.IsWhole)
    (arg4 : Memref sig .tc .vmem S1x8x256x512 .f32) (harg4 : arg4.IsWhole)
    (x0 : Vec F S1x8x256x512 .f32) (x1 : Vec F S1x5x1x512 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (stored x0 x1)) -∗ K ⟨⟩))
      ⊢ wp frame (wpE (defs₀ (F := F)) Variants.none c none) E
          (cc0__affine_softplus_kernel i arg2 harg2 arg3 harg3 arg4 harg4) K := by
  simp only [cc0__affine_softplus_kernel_eq_skeleton]; unfold cc0__affine_softplus_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_covers _)

/-! ## The pipeline's proof data -/

/-- On core `c`: the arrays as the region finds them; after the body at point `t` each input's staging buffer at its
    block and the output's at `stored` of the two input blocks; nothing else of the kernel's own. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => stored (blockAt m c 0 t) (blockAt m c 1 t)
  Φ _ := Pipeline.ΦA spec0 c
  q _ := fullShare
  owed _ := 0

theorem arrays_entry (c : Dev nD) (w : Fin cfg0.W) : (dats m 0 c).A w = entry m c (Pipeline.arrRef spec0 w) := by
  dsimp only [dats]

theorem after_z (c : Dev nD) (t : Fin cfg0.N) : (dats m 0 c).after 0 t = blockAt m c 0 t := by dsimp only [dats]
theorem after_params (c : Dev nD) (t : Fin cfg0.N) : (dats m 0 c).after 1 t = blockAt m c 1 t := by dsimp only [dats]
theorem after_out (c : Dev nD) (t : Fin cfg0.N) :
    (dats m 0 c).after 2 t = stored (blockAt m c 0 t) (blockAt m c 1 t) := by dsimp only [dats]

theorem before_z (c : Dev nD) (t : Fin cfg0.N) (d) : (dats m 0 c).before 0 t d = blockAt m c 0 t :=
  z_staged m (dats m 0 c) (arrays_entry m c 0) (after_z m c) t d
theorem before_params (c : Dev nD) (t : Fin cfg0.N) (d) : (dats m 0 c).before 1 t d = blockAt m c 1 t :=
  params_staged m (dats m 0 c) (arrays_entry m c 1) (after_params m c) t d

/-! ## The body at a grid point -/

/-- What the body is called with at point `t`: the three current staging buffers, the inputs' at their blocks, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem point_runs (c : Dev nD) (t : Fin cfg0.N) :
    pointPre m c t ⊢ wp frame (wpE (defs₀ (F := F)) Variants.none c none) Set.univ (bodyAt0 t) (fun _ => pointPost m c t) := by
  unfold pointPre pointPost bodyAt0
  simp only [before_z, before_params]
  rw [show (dats m 0 c).Φ t.succ = (dats m 0 c).Φ t.castSucc from rfl,
    show (dats m 0 c).owesAt () t.succ = (dats m 0 c).owesAt () t.castSucc from rfl,
    after_z, after_params, after_out]
  iintro ⟨HΦ, Ho, ⟨%d0, H0⟩, ⟨%d1, H1⟩, ⟨%d2, H2⟩⟩
  iapply (body_runs c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem every_point (c : Dev nD) : BodyObligation (dats (F := F) m 0 c) (defs₀ (F := F)) Variants.none () Set.univ := fun t => by
  rw [bigSep_W0, bigSep_W0]
  exact point_runs m c t

/-! ## The run -/

set_option backward.isDefEq.respectTransparency.types false in
/-- Every weakly fair execution of @main terminates, nothing faulting, with every array of the pipeline at what the
    proof data's write-backs leave and every other unscoped buffer as the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (every_point m c).loose) (hshare := fun c => (dats m 0 c).share_full fun _ => rfl)
    (howed := fun _ _ => rfl) (V := entry m) (hmain := main_to_region m Variants.none) (hA := arrays_entry m)
    (hΦ := fun _ _ => rfl)

/-- The frame: @main runs to its end and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  args_kept m ρ (dats m) (arrays_entry m) (run_main m ρ)

end Cert.Kernel.Region

end
-- ==== Proof.RegionIdeal.lean ====
/-
  The frame of `KernelIdeal`, at any float instance: @main is twenty-seven host operations — the fault-mode table's rows
  gathered by the mask, sliced into five parameter rows, the second divided by the fifth, the five stacked into one
  [8, 5, 1, 512] array — and then one region over the grid 8 × 4. At grid point (g, s) the body is handed the
  [1, 8, 256, 512] block (g, s) of z and the [1, 5, 1, 512] block g of the stacked parameters, and stores, through one
  rectangle that is its whole output block, one pure function of those two blocks. So every point terminates
  without a fault whatever the contents are, the two input blocks are left in place, and no host operation or
  write-back touches an argument array: each ends as it was launched.
-/
import proofs.«146256_j45406394253469_2_alg».proof.Proof.Gen.KernelIdeal.Launch
import proofs.«146256_j45406394253469_2_alg».proof.Proof.Gen.KernelIdeal.Skeleton
import proofs.«146256_j45406394253469_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers after the host operations that precede the region. -/
abbrev entry (c : Dev nD) (b : Ref sig .tc) : Buf (Elt F) ((c : Thread nD τ).loc b) :=
  StableHlo.after hostOps0 (fun b => m (c, b)) b

/-- No host operation leaves a buffer at unspecified contents. -/
theorem hostOps0_fresh : (hostOps0 : List (HloOp τ sig (Elt F))).Forall fun op => op.fresh = ∅ := by
  simp only [List.Forall]; repeat' constructor

/-- @main is the host operations and then the region. -/
theorem main_to_region (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- Every host operation writes its own result buffer, none of which is z: the region finds z as launched. -/
theorem entry_z (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- Nor is any the mask. -/
theorem entry_mask (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))
/-- Nor the fault-mode table. -/
theorem entry_table (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (by decide)))

/-! ## The blocks -/

/-- Window `w`'s block at grid point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-- The z window's staging buffer holds the point's block of z whenever the body leaves that block in place. -/
theorem z_staged {c : Dev nD} (dat : Dat τ (Elt F) Unit ℕ (UR sig nD τ) ℕ cfg0 c)
    (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl)
    (fun t => by rw [hafter]; unfold Dat.blockOf blockAt; rw [hA]; try rfl) t d).trans
    (by unfold Dat.fetched Dat.blockOf blockAt; rw [hA]; try rfl)
/-- The parameter window is fetched only when the group g changes; in between its block index does not move, so its
    staging buffer holds the point's parameter block at every point all the same. -/
theorem params_staged {c : Dev nD} (dat : Dat τ (Elt F) Unit ℕ (UR sig nD τ) ℕ cfg0 c)
    (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl)
    (fun t => by rw [hafter]; unfold Dat.blockOf blockAt; rw [hA]; try rfl) t d).trans
    (by unfold Dat.fetched Dat.blockOf blockAt; rw [hA]; try rfl)

/-! ## From the region's run to the argument arrays -/

/-- A run of @main to the pipeline's post leaves z at what the region found (an input window's array is never written
    back), the mask and the table — which no window stages — likewise, and the region found all three as launched. -/
theorem args_kept (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats 0 c).arrAt_in 0 rfl _).trans ((hA c 0).trans (entry_z m c))),
      ((h c).2 main_arg1 (Pipeline.mem_restRefs_of main_arg1 (by decide) (by decide))).trans (entry_mask m c),
      ((h c).2 main_arg2 (Pipeline.mem_restRefs_of main_arg2 (by decide) (by decide))).trans (entry_table m c)⟩) h

/-! ## What the body stores -/

/-- The whole z-shaped block, as a rectangle: what the body loads of z and what it stores of the result. -/
abbrev wholeZ : Rect S1x8x256x512 :=
  Rect.unit (s := S1x8x256x512) ![0, 0, 0, 0] S1x8x256x512.size inb_S1x8x256x512_S1x8x256x512_0_0_0_0
/-- The whole parameter block, as a rectangle. -/
abbrev wholeP : Rect S1x5x1x512 :=
  Rect.unit (s := S1x5x1x512) ![0, 0, 0, 0] S1x5x1x512.size inb_S1x5x1x512_S1x5x1x512_0_0_0_0

/-- The output window's staging buffer after the body: its one store, of the body's arithmetic on the two input blocks. -/
def stored (x0 : Vec F S1x8x256x512 .f32) (x1 : Vec F S1x5x1x512 .f32) : Vec F S1x8x256x512 .f32 :=
  View.canon [⟨wholeZ, k0_pay1 (View.ld x0 wholeZ) (View.ld x1 wholeP)⟩]

/-- That one store covers the buffer. -/
theorem stored_covers (p0 : Vec F S1x8x256x512 .f32) (y : S1x8x256x512.Idx) :
    ∃ pc ∈ ([⟨wholeZ, p0⟩] : List (View.Piece (Elt F) S1x8x256x512 .f32)), y ∈ pc.1.set :=
  View.cover_of_tiled [⟨wholeZ, p0⟩] S1x8x256x512.size (by rfl) y

/-! ## The body -/

set_option maxHeartbeats 1000000 in
/-- The body on whole staging buffers — the inputs' at contents `x0`, `x1`, the output's at anything — runs to its end
    with the inputs' as they were and the output's at `stored x0 x1`: three loads (the third, of the output buffer, is
    never used), one covering store. -/
theorem body_runs (c : Dev nD) (E : Set ℕ) (i : grid0.Coords)
    (arg2 : Memref sig .tc .vmem S1x8x256x512 .f32) (harg2 : arg2.IsWhole)
    (arg3 : Memref sig .tc .vmem S1x5x1x512 .f32) (harg3 : arg3.IsWhole)
    (arg4 : Memref sig .tc .vmem S1x8x256x512 .f32) (harg4 : arg4.IsWhole)
    (x0 : Vec F S1x8x256x512 .f32) (x1 : Vec F S1x5x1x512 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (stored x0 x1)) -∗ K ⟨⟩))
      ⊢ wp frame (wpE (defs₀ (F := F)) Variants.none c none) E
          (cc0__affine_softplus_kernel i arg2 harg2 arg3 harg3 arg4 harg4) K := by
  simp only [cc0__affine_softplus_kernel_eq_skeleton]; unfold cc0__affine_softplus_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored_covers _)

/-! ## The pipeline's proof data -/

/-- On core `c`: the arrays as the region finds them; after the body at point `t` each input's staging buffer at its
    block and the output's at `stored` of the two input blocks; nothing else of the kernel's own. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => stored (blockAt m c 0 t) (blockAt m c 1 t)
  Φ _ := Pipeline.ΦA spec0 c
  q _ := fullShare
  owed _ := 0

theorem arrays_entry (c : Dev nD) (w : Fin cfg0.W) : (dats m 0 c).A w = entry m c (Pipeline.arrRef spec0 w) := by
  dsimp only [dats]

theorem after_z (c : Dev nD) (t : Fin cfg0.N) : (dats m 0 c).after 0 t = blockAt m c 0 t := by dsimp only [dats]
theorem after_params (c : Dev nD) (t : Fin cfg0.N) : (dats m 0 c).after 1 t = blockAt m c 1 t := by dsimp only [dats]
theorem after_out (c : Dev nD) (t : Fin cfg0.N) :
    (dats m 0 c).after 2 t = stored (blockAt m c 0 t) (blockAt m c 1 t) := by dsimp only [dats]

theorem before_z (c : Dev nD) (t : Fin cfg0.N) (d) : (dats m 0 c).before 0 t d = blockAt m c 0 t :=
  z_staged m (dats m 0 c) (arrays_entry m c 0) (after_z m c) t d
theorem before_params (c : Dev nD) (t : Fin cfg0.N) (d) : (dats m 0 c).before 1 t d = blockAt m c 1 t :=
  params_staged m (dats m 0 c) (arrays_entry m c 1) (after_params m c) t d

/-! ## The body at a grid point -/

/-- What the body is called with at point `t`: the three current staging buffers, the inputs' at their blocks, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem point_runs (c : Dev nD) (t : Fin cfg0.N) :
    pointPre m c t ⊢ wp frame (wpE (defs₀ (F := F)) Variants.none c none) Set.univ (bodyAt0 t) (fun _ => pointPost m c t) := by
  unfold pointPre pointPost bodyAt0
  simp only [before_z, before_params]
  rw [show (dats m 0 c).Φ t.succ = (dats m 0 c).Φ t.castSucc from rfl,
    show (dats m 0 c).owesAt () t.succ = (dats m 0 c).owesAt () t.castSucc from rfl,
    after_z, after_params, after_out]
  iintro ⟨HΦ, Ho, ⟨%d0, H0⟩, ⟨%d1, H1⟩, ⟨%d2, H2⟩⟩
  iapply (body_runs c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem every_point (c : Dev nD) : BodyObligation (dats (F := F) m 0 c) (defs₀ (F := F)) Variants.none () Set.univ := fun t => by
  rw [bigSep_W0, bigSep_W0]
  exact point_runs m c t

/-! ## The run -/

set_option backward.isDefEq.respectTransparency.types false in
/-- Every weakly fair execution of @main terminates, nothing faulting, with every array of the pipeline at what the
    proof data's write-backs leave and every other unscoped buffer as the region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (every_point m c).loose) (hshare := fun c => (dats m 0 c).share_full fun _ => rfl)
    (howed := fun _ _ => rfl) (V := entry m) (hmain := main_to_region m Variants.none) (hA := arrays_entry m)
    (hΦ := fun _ _ => rfl)

/-- The frame: @main runs to its end and its three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  args_kept m ρ (dats m) (arrays_entry m) (run_main m ρ)

end Cert.KernelIdeal.Region

end
-- ==== Proof.Spec.lean ====
/-
  The mathematics of the kernel, on the extended reals. Per channel c of group g there are five parameters
  e0, e1, e2, e3, β (a row of the fault-mode table picked by the mask), and per element z of that channel the result is

      e0 · (z − e2) + e1 · softplus(β · (z − e2)) / β + e3,      softplus(x) = max(x, 0) + log(1 + e^{−|x|}).

  One program divides e1 by β once per channel and multiplies the quotient by the softplus; the other divides the
  softplus by β per element and multiplies by e1. Off β = 0 a quotient is the product with β⁻¹ (at β = ±∞ that is the
  product with 0), so the two are (e1 · β⁻¹) · s and e1 · (s · β⁻¹): equal because multiplication of extended reals is
  associative and commutative — no finiteness of e1 or of the softplus is needed. At β = 0 the two conventions for
  x / 0 disagree when e1 = 0, and there the two programs differ.
-/
import Idealize.ShloMosaic.PureOps.Ideal
import Idealize.ShloMosaic.PureOps.Ideal.Laws
import Idealize.ShloMosaic.Lib.ValueIdx

noncomputable section

namespace Cert.AffineSoftplus

open Idealize.ShloMosaic

/-- softplus in the overflow-free form both programs compute. -/
def softplus (x : EReal) : EReal := max x 0 + Ideal.log1p (Ideal.exp (-(max x (-x))))

/-- One element with the quotient e1 / β already taken (`q`). -/
def outQ (z e0 q e2 e3 β : EReal) : EReal := e0 * (z - e2) + q * softplus (β * (z - e2)) + e3

/-- One element with the softplus divided by β. -/
def outS (z e0 e1 e2 e3 β : EReal) : EReal := e0 * (z - e2) + e1 * Ideal.div (softplus (β * (z - e2))) β + e3

/-- (a / β) · s = a · (s / β) off β = 0. -/
theorem div_mul_eq_mul_div {β : EReal} (hβ : β ≠ 0) (a s : EReal) : Ideal.div a β * s = a * Ideal.div s β := by
  unfold Ideal.div
  rw [if_neg hβ, if_neg hβ, mul_assoc, mul_comm β⁻¹ s]

/-- The two arrangements agree off β = 0. -/
theorem outQ_div_eq_outS {β : EReal} (hβ : β ≠ 0) (z e0 e1 e2 e3 : EReal) :
    outQ z e0 (Ideal.div e1 β) e2 e3 β = outS z e0 e1 e2 e3 β := by
  unfold outQ outS
  rw [div_mul_eq_mul_div hβ]

/-- No extended real differs from itself, so a select on "x ≠ x" takes its second branch. -/
theorem cmp_one_self (x : EReal) : Ideal.cmp .one x x = 0#1 := by simp [Ideal.cmp]
theorem cmp_une_self (x : EReal) : Ideal.cmp .une x x = 0#1 := by simp [Ideal.cmp]

/-- The body's softplus: guarded by "x − 0 ≠ x − 0", the exponent written 0 − |x − 0|. -/
theorem guarded_sub (x : EReal) :
    Scalar.select (Ideal.cmp .one (x - 0) (x - 0)) (x + 0)
      (max x 0 + Ideal.log1p (Ideal.exp (0 - max (x - 0) (-(x - 0))))) = softplus x := by
  rw [cmp_one_self, ValueIdx.select_zero, sub_zero, zero_sub]; rfl

/-- The host's softplus: guarded the same way, the exponent written −|x − 0|. -/
theorem guarded_neg (x : EReal) :
    Scalar.select (Ideal.cmp .une (x - 0) (x - 0)) (x + 0)
      (max x 0 + Ideal.log1p (Ideal.exp (-(max (x - 0) (-(x - 0)))))) = softplus x := by
  rw [cmp_une_self, ValueIdx.select_zero, sub_zero]; rfl

end Cert.AffineSoftplus

end
-- ==== Proof.BodyValue.lean ====
/-
  The body's arithmetic, read at one element. The body slices the [1, 5, 1, 512] parameter block into its five rows,
  spreads each over the [1, 8, 256, 512] block of z along the sample and batch axes, and combines them elementwise: at
  element (·, n, r, c) the stored value depends on z there and on the five parameters of channel c only, and is
  `outQ` of them — e0 · (z − e2) + q · softplus(β · (z − e2)) + e3 with q the row the host filled with e1 / β.
-/
import proofs.«146256_j45406394253469_2_alg».proof.Proof.Gen.KernelIdeal.Skeleton
import proofs.«146256_j45406394253469_2_alg».proof.Proof.Spec
import Idealize.ShloMosaic.Lib.ValueIdx
import Idealize.ShloMosaic.Lib.Pipeline.Value

noncomputable section

namespace Cert.KernelIdeal.BodyValue

open Cert.KernelIdeal Cert.KernelIdeal.Gen Idealize.ShloMosaic Idealize.ShloMosaic.ValueIdx Cert.AffineSoftplus

/-- Row `k` of the parameter block at channel `c`. -/
abbrev prow (k : Fin 5) (c : Fin 512) : S1x5x1x512.Idx := ix4 (0 : Fin 1) k (0 : Fin 1) c

/-- Row `kk` of the parameter block, spread over the z block: at (·, n, r, c) it is the row's entry of channel c. -/
theorem row_spread (kk : Nat) (hk : kk < 5) (h : S1x5x1x512.Slices ![0, kk, 0, 0] S1x1x1x512)
    (hb : S1x1x1x512.Broadcasts S1x8x256x512) (v : FVec Ideal S1x5x1x512 .f32)
    (a : Fin 1) (n : Fin 8) (r : Fin 256) (c : Fin 512) :
    broadcastTo S1x8x256x512 (extractStridedSlice S1x1x1x512 ![0, kk, 0, 0] v h) hb (ix4 a n r c) = v (prow ⟨kk, hk⟩ c) := by
  refine (broadcastTo_apply _ hb (ix4 a n r c) (ix4 (0 : Fin 1) (0 : Fin 1) (0 : Fin 1) c) (fun b => ?_)).trans ?_
  · match b with
    | ⟨0, _⟩ => show (0 : Nat) = if (1 : Nat) = 1 then 0 else _; rw [if_pos rfl]
    | ⟨1, _⟩ => show (0 : Nat) = if (1 : Nat) = 1 then 0 else _; rw [if_pos rfl]
    | ⟨2, _⟩ => show (0 : Nat) = if (1 : Nat) = 1 then 0 else _; rw [if_pos rfl]
    | ⟨3, _⟩ => show c.val = if (512 : Nat) = 1 then 0 else c.val; rw [if_neg (by decide)]
  · refine extractStridedSlice_apply _ v h _ (prow ⟨kk, hk⟩ c) (fun b => ?_)
    match b with
    | ⟨0, _⟩ => show (0 : Nat) = 0 + 0; rfl
    | ⟨1, _⟩ => show kk = kk + 0; rfl
    | ⟨2, _⟩ => show (0 : Nat) = 0 + 0; rfl
    | ⟨3, _⟩ => show c.val = 0 + c.val; omega

/-- The stored value at element (·, n, r, c): `outQ` of z there and channel c's five parameters. -/
theorem stored_value (x0 : FVec Ideal S1x8x256x512 .f32) (x1 : FVec Ideal S1x5x1x512 .f32)
    (a : Fin 1) (n : Fin 8) (r : Fin 256) (c : Fin 512) :
    (k0_pay1 (F := Ideal) x0 x1 (ix4 a n r c) : EReal)
      = outQ (x0 (ix4 a n r c)) (x1 (prow 0 c)) (x1 (prow 1 c)) (x1 (prow 2 c)) (x1 (prow 3 c)) (x1 (prow 4 c)) := by
  unfold k0_pay1
  simp only [select_apply, cmpf_apply, log1p, exp, absf, subf, mulf, addf, maximumf, broadcast, shapeCast_self,
    row_spread 0 (by decide), row_spread 1 (by decide), row_spread 2 (by decide), row_spread 3 (by decide),
    row_spread 4 (by decide),
    Ideal.mulf_def, Ideal.addf_def, Ideal.subf_def, Ideal.maximumf_def, Ideal.exp_def, Ideal.log1p_def, Ideal.absf_def,
    Ideal.cmpf_def, Ideal.ofBits_def, Ideal.ofBits_zero_f32]
  rw [guarded_sub]
  rfl

end Cert.KernelIdeal.BodyValue

end
-- ==== Proof.ArrayValue.lean ====
/-
  From blocks to the whole result array. Grid point (g, s) writes back block (g, s, 0, 0) of the result: samples
  8s … 8s + 7 of group g, every batch row and channel. Its z block is the block of z at the same place and its parameter
  block is group g's, so what it writes back is the restriction to that block of ONE function of the whole arrays,
      W(z, P)[g, n, r, c] = outQ(z[g, n, r, c]; P[g, 0, 0, c], P[g, 1, 0, c], P[g, 2, 0, c], P[g, 3, 0, c], P[g, 4, 0, c]).
  The 8 × 4 blocks tile the array (element (g, n, ·, ·) lies in block (g, n / 8)), so after the run the result array is W of
  z as launched and of the parameter array the region was entered with.
-/
import proofs.«146256_j45406394253469_2_alg».proof.Proof.RegionIdeal
import proofs.«146256_j45406394253469_2_alg».proof.Proof.BodyValue
import Idealize.ShloMosaic.Lib.ValueIdx
import Idealize.ShloMosaic.Lib.Pipeline.Value

noncomputable section

namespace Cert.KernelIdeal.ArrayValue

open Cert.KernelIdeal Cert.KernelIdeal.Gen Cert.KernelIdeal.Region Cert.KernelIdeal.BodyValue
open Idealize.ShloMosaic Idealize.ShloMosaic.TcCoe Idealize.ShloMosaic.ValueIdx Idealize.SL.Sem Cert.AffineSoftplus

variable (m : (ℓ : Loc nD τ sig) → Buf (Elt Ideal) ℓ) (ρ : Dev nD → PrngReg)

theorem zeros4 : (![0, 0, 0, 0] : Fin 4 → Nat) = fun _ => 0 := funext fun a => by fin_cases a <;> rfl

/-- Where element `i` of the result finds parameter `k` of its group and channel. -/
abbrev paramOf (i : S8x32x256x512.Idx) (k : Fin 5) : S8x5x1x512.Idx := ix4 (i 0) k (0 : Fin 1) (i 3)

/-- The result as one function of z and the stacked parameters. -/
def whole (z : S8x32x256x512.Idx → EReal) (P : S8x5x1x512.Idx → EReal) : S8x32x256x512.Idx → EReal := fun i =>
  outQ (z i) (P (paramOf i 0)) (P (paramOf i 1)) (P (paramOf i 2)) (P (paramOf i 3)) (P (paramOf i 4))

/-- The three windows' block indices over the grid: z's and the result's move together, over groups and sample blocks;
    the parameters' follows the group alone. -/
theorem block_indices : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_2.index t (2 : Fin 4) = 0 ∧ win0_2.index t (3 : Fin 4) = 0
    ∧ win0_1.index t (0 : Fin 4) = win0_2.index t (0 : Fin 4) ∧ win0_1.index t (1 : Fin 4) = 0
    ∧ win0_1.index t (2 : Fin 4) = 0 ∧ win0_1.index t (3 : Fin 4) = 0
    ∧ win0_2.index t (0 : Fin 4) ≤ 7 ∧ win0_2.index t (1 : Fin 4) ≤ 3 :=
  (by decide +kernel : ∀ t : Fin grid0.N, _)

/-- Every (group, sample block) is some grid point's. -/
theorem every_block : ∀ (q0 : Fin 8) (q1 : Fin 4), ∃ t : Fin cfg0.N, win0_2.index t = ![q0.val, q1.val, 0, 0] :=
  (by decide +kernel : ∀ (q0 : Fin 8) (q1 : Fin 4), ∃ t : Fin grid0.N, win0_2.index t = ![q0.val, q1.val, 0, 0])

/-- What point `t` writes back is block `t` of `whole` of the arrays as the region finds them. -/
theorem written_back (c : Dev nD) (t : Fin cfg0.N) :
    (dats m 0 c).flushed 2 t
      = ((cfg0.win 2).blk t).view.read (Elt Ideal) (whole (entry m c main_arg0) (entry m c main_v24)) := by
  show (cfg0.win 2).cut (grid0.coords t) ((dats m 0 c).after 2 t) = _
  rw [after_out]
  unfold stored
  rw [View.canon_unit_zero zeros4]
  simp only [View.ld_unit_zero (S := S1x8x256x512) zeros4, View.ld_unit_zero (S := S1x5x1x512) zeros4]
  obtain ⟨e0, e1, e2, e3, e4, e5, e6, e7, e8, e9, e10, e11⟩ := block_indices t
  refine funext fun (j : S1x8x256x512.Idx) => ?_
  obtain ⟨a, n, r, cc, rfl⟩ : ∃ (a : Fin 1) (n : Fin 8) (r : Fin 256) (cc : Fin 512), j = ix4 a n r cc :=
    ⟨j 0, j 1, j 2, j 3, eq_ix4 j⟩
  show k0_pay1 (F := Ideal) (blockAt m c 0 t) (blockAt m c 1 t) (ix4 a n r cc)
    = whole (entry m c main_arg0) (entry m c main_v24) (((cfg0.win 2).blk t).view.emb (ix4 a n r cc))
  refine (stored_value (blockAt m c 0 t) (blockAt m c 1 t) a n r cc).trans ?_
  have ha : a.val = 0 := by omega
  -- the z block's element is the result block's element
  have hzb : ((cfg0.win 0).blk t).view.emb (ix4 a n r cc) = ((cfg0.win 2).blk t).view.emb (ix4 a n r cc) := by
    funext b; apply Fin.ext
    match b with
    | ⟨0, _⟩ => show win0_0.index t (0 : Fin 4) * 1 + 1 * a.val = win0_2.index t (0 : Fin 4) * 1 + 1 * a.val; omega
    | ⟨1, _⟩ => show win0_0.index t (1 : Fin 4) * 8 + 1 * n.val = win0_2.index t (1 : Fin 4) * 8 + 1 * n.val; omega
    | ⟨2, _⟩ => show win0_0.index t (2 : Fin 4) * 256 + 1 * r.val = win0_2.index t (2 : Fin 4) * 256 + 1 * r.val; omega
    | ⟨3, _⟩ => show win0_0.index t (3 : Fin 4) * 512 + 1 * cc.val = win0_2.index t (3 : Fin 4) * 512 + 1 * cc.val; omega
  -- row k of the parameter block at channel cc is parameter k of the element's group and channel
  have hpb : ∀ k : Fin 5, ((cfg0.win 1).blk t).view.emb (prow k cc)
      = paramOf (((cfg0.win 2).blk t).view.emb (ix4 a n r cc)) k := by
    intro k; funext b; apply Fin.ext
    match b with
    | ⟨0, _⟩ => show win0_1.index t (0 : Fin 4) * 1 + 1 * 0 = win0_2.index t (0 : Fin 4) * 1 + 1 * a.val; omega
    | ⟨1, _⟩ => show win0_1.index t (1 : Fin 4) * 5 + 1 * k.val = k.val; omega
    | ⟨2, _⟩ => show win0_1.index t (2 : Fin 4) * 1 + 1 * 0 = 0; omega
    | ⟨3, _⟩ => show win0_1.index t (3 : Fin 4) * 512 + 1 * cc.val = win0_2.index t (3 : Fin 4) * 512 + 1 * cc.val; omega
  show outQ (entry m c main_arg0 (((cfg0.win 0).blk t).view.emb (ix4 a n r cc)))
      (entry m c main_v24 (((cfg0.win 1).blk t).view.emb (prow 0 cc)))
      (entry m c main_v24 (((cfg0.win 1).blk t).view.emb (prow 1 cc)))
      (entry m c main_v24 (((cfg0.win 1).blk t).view.emb (prow 2 cc)))
      (entry m c main_v24 (((cfg0.win 1).blk t).view.emb (prow 3 cc)))
      (entry m c main_v24 (((cfg0.win 1).blk t).view.emb (prow 4 cc))) = _
  rw [hzb, hpb 0, hpb 1, hpb 2, hpb 3, hpb 4]
  rfl

/-- An element of the result is in point `t`'s block iff each coordinate is in the block's range on its axis. -/
theorem in_block (t : Fin cfg0.N) (i : S8x32x256x512.Idx) :
    i ∈ ((cfg0.win 2).blk t).view.set ↔ ∀ a : Fin 4, win0_2.index t a * S1x8x256x512.size a ≤ (i a).val
      ∧ (i a).val < win0_2.index t a * S1x8x256x512.size a + S1x8x256x512.size a := by
  show i ∈ ((View.whole main_v25).slice (win0_2.rect t)).set ↔ _
  rw [View.set_slice_whole, Rect.mem_set_unit]
  exact Iff.rfl

/-- The blocks tile the result: element (g, n, ·, ·) lies in block (g, n / 8), and every block is written back. -/
theorem tiled (i : S8x32x256x512.Idx) :
    ∃ t : Fin cfg0.N, (cfg0.win 2).flush t = true ∧ i ∈ ((cfg0.win 2).blk t).view.set := by
  have h0 : (i 0).val < 8 := (i 0).isLt
  have h1 : (i 1).val < 32 := (i 1).isLt
  have h2 : (i 2).val < 256 := (i 2).isLt
  have h3 : (i 3).val < 512 := (i 3).isLt
  obtain ⟨t, ht⟩ := every_block ⟨(i 0).val, h0⟩ ⟨(i 1).val / 8, by omega⟩
  have q0 : win0_2.index t (0 : Fin 4) = (i 0).val := congrFun ht 0
  have q1 : win0_2.index t (1 : Fin 4) = (i 1).val / 8 := congrFun ht 1
  have q2 : win0_2.index t (2 : Fin 4) = 0 := congrFun ht 2
  have q3 : win0_2.index t (3 : Fin 4) = 0 := congrFun ht 3
  refine ⟨t, flush0_2 t, ?_⟩
  rw [in_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 8 ≤ (i 1).val ∧ (i 1).val < win0_2.index t (1 : Fin 4) * 8 + 8; omega
  | ⟨2, _⟩ => show win0_2.index t (2 : Fin 4) * 256 ≤ (i 2).val ∧ (i 2).val < win0_2.index t (2 : Fin 4) * 256 + 256; omega
  | ⟨3, _⟩ => show win0_2.index t (3 : Fin 4) * 512 ≤ (i 3).val ∧ (i 3).val < win0_2.index t (3 : Fin 4) * 512 + 512; omega

/-- The result array after the run. -/
theorem result_array (c : Dev nD) :
    (dats m 0 c).arrAt 2 cfg0.N = whole (entry m c main_arg0) (entry m c main_v24) :=
  (dats m 0 c).arrAt_eq_of_cover 2 _ (fun t _ => written_back m c t) tiled

end Cert.KernelIdeal.ArrayValue

end
-- ==== Proof.LibNary5.lean ====
/-
  A host operation over a literal family of FIVE operand buffers (a concatenation of five arrays): its result, with each
  operand's contents taken at that operand's own buffer. The library's general statement hands the operation the family
  `fun k => F ↑(![a, b, c, d, e] k)`, under whose binder no operand is a literal buffer; spelt as five nested
  `Fin.cons` the operands' contents are five terms, each at a literal buffer, that can be rewritten further.
-/
import Idealize.ShloMosaic.Lib.StableHlo.Run

namespace Idealize.ShloMosaic.StableHlo

variable {τ : Topo} {sig : RefSig} {Val : EltTy → Type}
variable {x a b c e y : Ref sig .tc}

/-- The result buffer of a five-operand operation holds the operation's function of the five operands' contents. -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) := by
  rw [nary_result]; congr 1; funext k; fin_cases k <;> rfl

/-- For an operation given as a function `g` of its five operands taken one by one (a concatenation lists them so): the
    result buffer holds `g` of the five operands' contents, each at its own literal buffer. -/
theorem nary5_result_fn
    (g : x.ty.Contents Val → a.ty.Contents Val → b.ty.Contents Val → c.ty.Contents Val → e.ty.Contents Val → y.ty.Contents Val)
    (hxs hy) (F : Valuation τ sig Val) :
    (nary (τ := τ) ![x, a, b, c, e] y (fun u => g (u 0) (u 1) (u 2) (u 3) (u 4)) hxs hy).result F (Proc.devRef .tc y)
      = g (F (Proc.devRef .tc x)) (F (Proc.devRef .tc a)) (F (Proc.devRef .tc b)) (F (Proc.devRef .tc c)) (F (Proc.devRef .tc e)) :=
  nary_result _ _ _ _ _ _

/-- The same, keyed for the simplifier on the operation alone. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b))
          (Fin.cons (F (Proc.devRef .tc c)) (Fin.cons (F (Proc.devRef .tc e)) (fun i => i.elim0)))))) :=
  nary5_result f hxs hy F

end Idealize.ShloMosaic.StableHlo
-- ==== Proof.HostParams.lean ====
/-
  The parameter array the region is entered with. The host gathers, for group g and channel c, the row of the
  fault-mode table that the mask names — E[g, c, ·], five numbers —, cuts E into its five [8, 512] columns, divides
  the second by the fifth, and stacks the five as the rows of one [8, 5, 1, 512] array P. So
      P[g, 0, 0, c] = E[g, c, 0]      P[g, 1, 0, c] = E[g, c, 1] / E[g, c, 4]      P[g, k, 0, c] = E[g, c, k]  (k = 2, 3, 4).
  Which row of the table E[g, c, ·] is never matters here: the gather is carried as one opaque function of the mask and the table.
-/
import proofs.«146256_j45406394253469_2_alg».proof.Proof.RegionIdeal
import proofs.«146256_j45406394253469_2_alg».proof.Proof.LibNary5
import Idealize.ShloMosaic.Lib.ValueIdx
import Idealize.ShloMosaic.Lib.Pipeline.Value
import Idealize.ShloMosaic.Lib.StableHlo.Run

noncomputable section

namespace Cert.KernelIdeal.HostValue

open Cert.KernelIdeal Cert.KernelIdeal.Gen Cert.KernelIdeal.Region Idealize.ShloMosaic Idealize.ShloMosaic.ValueIdx
open Idealize.ShloMosaic.TcCoe Idealize.SL.Sem Idealize.ShloMosaic.StableHlo

/-- The rows of the table the mask names: a negative entry counted from the table's end, then one gather. -/
def gathered (mask : IVec S8x512 32) (table : FVec Ideal S13x5 .f32) : FVec Ideal S8x512x5 .f32 :=
  Host.gather gather_S13x5_S8x512x1_S8x512x5_2_0_n_n_0_2_15 table
    (broadcastInDim S8x512x1 ![0, 1] bcast_S8x512_S8x512x1_0_1
      (select (cmpi .slt mask (broadcastInDim S8x512 ![] bcast_S_S8x512 (constantI S_ 32 0#32)))
        (addi mask (broadcastInDim S8x512 ![] bcast_S_S8x512 (constantI S_ 32 13#32))) mask))

/-- Column `k` of the gathered rows, as an [8, 512] array. -/
def column (E : FVec Ideal S8x512x5 .f32) (k : Nat) (h : S8x512x5.Slices ![0, 0, k] S8x512x1) : FVec Ideal S8x512 .f32 :=
  shapeCast S8x512 (extractStridedSlice S8x512x1 ![0, 0, k] E h) shapeCasts_S8x512x1_S8x512

/-- An [8, 512] array as one row of the stack. -/
def asRow (v : FVec Ideal S8x512 .f32) : FVec Ideal S8x1x512 .f32 :=
  broadcastInDim S8x1x512 ![0, 2] bcast_S8x512_S8x1x512_0_2 v

/-- A row of the stack at (g, ·, c) is the array at (g, c). -/
theorem asRow_apply (v : FVec Ideal S8x512 .f32) (g : Fin 8) (cc : Fin 512) :
    asRow v (ix3 g (0 : Fin 1) cc) = v (ix2 g cc) := by
  unfold asRow
  refine broadcastInDim_apply _ bcast_S8x512_S8x1x512_0_2 v _ (ix2 g cc) (fun b => ?_)
  match b with
  | ⟨0, _⟩ => show g.val = if (8 : Nat) = 1 then 0 else g.val; rw [if_neg (by decide)]
  | ⟨1, _⟩ => show cc.val = if (512 : Nat) = 1 then 0 else cc.val; rw [if_neg (by decide)]

/-- Column `kk` at (g, c) is entry `kk` of the gathered row of (g, c). -/
theorem column_apply (E : FVec Ideal S8x512x5 .f32) (kk : Nat) (hk : kk < 5) (h : S8x512x5.Slices ![0, 0, kk] S8x512x1)
    (g : Fin 8) (cc : Fin 512) : column E kk h (ix2 g cc) = E (ix3 g cc ⟨kk, hk⟩) := by
  unfold column
  refine (shapeCast_apply _ shapeCasts_S8x512x1_S8x512 (ix2 g cc) (ix3 g cc (0 : Fin 1)) ?_).trans ?_
  · rw [Shape.rowMajor_val_three, Shape.rowMajor_val_two]
    show (g.val * 512 + cc.val) * 1 + 0 = g.val * 512 + cc.val
    omega
  · refine extractStridedSlice_apply _ E h _ (ix3 g cc ⟨kk, hk⟩) (fun b => ?_)
    match b with
    | ⟨0, _⟩ => show g.val = 0 + g.val; omega
    | ⟨1, _⟩ => show cc.val = 0 + cc.val; omega
    | ⟨2, _⟩ => show kk = kk + 0; rfl

variable (m : (ℓ : Loc nD τ sig) → Buf (Elt Ideal) ℓ)

/-! ## The five buffers the host stacks -/

theorem entry_row0 (c : Dev nD) :
    (entry m c main_v18 : S8x1x512.Idx → EReal)
      = asRow (column (gathered (m ((c : Thread nD τ).loc main_arg1)) (m ((c : Thread nD τ).loc main_arg2))) 0 slices_S8x512x5_S8x512x1_0_0_0) := by
  dsimp only [entry, hostOps0]
  simp (disch := decide) only [after_cons, after_nil, nullary_result', unary_result', binary_result', ternary_result', reshape_result',
    nullary_result_ne', unary_result_ne', binary_result_ne', ternary_result_ne', reshape_result_ne', nary_result_ne']
  rfl

theorem entry_row1 (c : Dev nD) :
    (entry m c main_v19 : S8x1x512.Idx → EReal)
      = asRow (Host.divf (F := Ideal) (column (gathered (m ((c : Thread nD τ).loc main_arg1)) (m ((c : Thread nD τ).loc main_arg2))) 1 slices_S8x512x5_S8x512x1_0_0_1) (column (gathered (m ((c : Thread nD τ).loc main_arg1)) (m ((c : Thread nD τ).loc main_arg2))) 4 slices_S8x512x5_S8x512x1_0_0_4)) := by
  dsimp only [entry, hostOps0]
  simp (disch := decide) only [after_cons, after_nil, nullary_result', unary_result', binary_result', ternary_result', reshape_result',
    nullary_result_ne', unary_result_ne', binary_result_ne', ternary_result_ne', reshape_result_ne', nary_result_ne']
  rfl

theorem entry_row2 (c : Dev nD) :
    (entry m c main_v20 : S8x1x512.Idx → EReal)
      = asRow (column (gathered (m ((c : Thread nD τ).loc main_arg1)) (m ((c : Thread nD τ).loc main_arg2))) 2 slices_S8x512x5_S8x512x1_0_0_2) := by
  dsimp only [entry, hostOps0]
  simp (disch := decide) only [after_cons, after_nil, nullary_result', unary_result', binary_result', ternary_result', reshape_result',
    nullary_result_ne', unary_result_ne', binary_result_ne', ternary_result_ne', reshape_result_ne', nary_result_ne']
  rfl

theorem entry_row3 (c : Dev nD) :
    (entry m c main_v21 : S8x1x512.Idx → EReal)
      = asRow (column (gathered (m ((c : Thread nD τ).loc main_arg1)) (m ((c : Thread nD τ).loc main_arg2))) 3 slices_S8x512x5_S8x512x1_0_0_3) := by
  dsimp only [entry, hostOps0]
  simp (disch := decide) only [after_cons, after_nil, nullary_result', unary_result', binary_result', ternary_result', reshape_result',
    nullary_result_ne', unary_result_ne', binary_result_ne', ternary_result_ne', reshape_result_ne', nary_result_ne']
  rfl

theorem entry_row4 (c : Dev nD) :
    (entry m c main_v22 : S8x1x512.Idx → EReal)
      = asRow (column (gathered (m ((c : Thread nD τ).loc main_arg1)) (m ((c : Thread nD τ).loc main_arg2))) 4 slices_S8x512x5_S8x512x1_0_0_4) := by
  dsimp only [entry, hostOps0]
  simp (disch := decide) only [after_cons, after_nil, nullary_result', unary_result', binary_result', ternary_result', reshape_result',
    nullary_result_ne', unary_result_ne', binary_result_ne', ternary_result_ne', reshape_result_ne', nary_result_ne']
  rfl

/-! ## The stack, row by row -/

/-- Row 0 of the stack is the first stacked buffer. -/
theorem stack_row0 (c : Dev nD) (g : Fin 8) (cc : Fin 512) :
    (entry m c main_v24 : S8x5x1x512.Idx → EReal) (ix4 g (0 : Fin 5) (0 : Fin 1) cc)
      = (entry m c main_v18 : S8x1x512.Idx → EReal) (ix3 g (0 : Fin 1) cc) := by
  have hR : (entry m c main_v18 : S8x1x512.Idx → EReal)
      = StableHlo.after (hostOps0.take 25) (fun b => m (c, b)) (Proc.devRef .tc main_v18) := by
    dsimp only [entry, hostOps0, List.take]
    simp only [after_cons, after_nil]
    rw [unary_result_ne, nary_result_ne] <;> decide
  rw [hR]
  dsimp only [entry, hostOps0, List.take]
  simp only [after_cons, after_nil]
  rw [unary_result]
  refine (broadcastInDim_apply _ bcast_S8x5x512_S8x5x1x512_0_1_3 _ (ix4 g (0 : Fin 5) (0 : Fin 1) cc)
    (ix3 g (0 : Fin 5) cc) (fun b => ?_)).trans ?_
  · match b with
    | ⟨0, _⟩ => show g.val = if (8 : Nat) = 1 then 0 else g.val; rw [if_neg (by decide)]
    | ⟨1, _⟩ => show (0 : Nat) = if (5 : Nat) = 1 then 0 else 0; rw [if_neg (by decide)]
    | ⟨2, _⟩ => show cc.val = if (512 : Nat) = 1 then 0 else cc.val; rw [if_neg (by decide)]
  rw [nary5_result_fn (x := main_v18) (a := main_v19) (b := main_v20) (c := main_v21) (e := main_v22) (y := main_v23)
    (g := fun a0 a1 a2 a3 a4 => concatenate S8x5x512 1
      [⟨S8x1x512, a0⟩, ⟨S8x1x512, a1⟩, ⟨S8x1x512, a2⟩, ⟨S8x1x512, a3⟩, ⟨S8x1x512, a4⟩]
      concatenates_S8x1x512_S8x1x512_S8x1x512_S8x1x512_S8x1x512_S8x5x512_d1)]
  refine concatenate_apply_piece (1 : Fin 3) _ _ (ix3 g (0 : Fin 5) cc) 0 ?_ S8x1x512 _ ?_ ?_ 0 ?_
    (ix3 g (0 : Fin 1) cc) ?_ ?_
  · show 0 < 5; decide
  · rfl
  · rfl
  · rfl
  · intro b hb
    match b with
    | ⟨0, _⟩ => rfl
    | ⟨1, _⟩ => exact absurd rfl hb
    | ⟨2, _⟩ => rfl
  · show 0 + 0 = 0; rfl

/-- Row 1 of the stack is the second stacked buffer. -/
theorem stack_row1 (c : Dev nD) (g : Fin 8) (cc : Fin 512) :
    (entry m c main_v24 : S8x5x1x512.Idx → EReal) (ix4 g (1 : Fin 5) (0 : Fin 1) cc)
      = (entry m c main_v19 : S8x1x512.Idx → EReal) (ix3 g (0 : Fin 1) cc) := by
  have hR : (entry m c main_v19 : S8x1x512.Idx → EReal)
      = StableHlo.after (hostOps0.take 25) (fun b => m (c, b)) (Proc.devRef .tc main_v19) := by
    dsimp only [entry, hostOps0, List.take]
    simp only [after_cons, after_nil]
    rw [unary_result_ne, nary_result_ne] <;> decide
  rw [hR]
  dsimp only [entry, hostOps0, List.take]
  simp only [after_cons, after_nil]
  rw [unary_result]
  refine (broadcastInDim_apply _ bcast_S8x5x512_S8x5x1x512_0_1_3 _ (ix4 g (1 : Fin 5) (0 : Fin 1) cc)
    (ix3 g (1 : Fin 5) cc) (fun b => ?_)).trans ?_
  · match b with
    | ⟨0, _⟩ => show g.val = if (8 : Nat) = 1 then 0 else g.val; rw [if_neg (by decide)]
    | ⟨1, _⟩ => show (1 : Nat) = if (5 : Nat) = 1 then 0 else 1; rw [if_neg (by decide)]
    | ⟨2, _⟩ => show cc.val = if (512 : Nat) = 1 then 0 else cc.val; rw [if_neg (by decide)]
  rw [nary5_result_fn (x := main_v18) (a := main_v19) (b := main_v20) (c := main_v21) (e := main_v22) (y := main_v23)
    (g := fun a0 a1 a2 a3 a4 => concatenate S8x5x512 1
      [⟨S8x1x512, a0⟩, ⟨S8x1x512, a1⟩, ⟨S8x1x512, a2⟩, ⟨S8x1x512, a3⟩, ⟨S8x1x512, a4⟩]
      concatenates_S8x1x512_S8x1x512_S8x1x512_S8x1x512_S8x1x512_S8x5x512_d1)]
  refine concatenate_apply_piece (1 : Fin 3) _ _ (ix3 g (1 : Fin 5) cc) 1 ?_ S8x1x512 _ ?_ ?_ 1 ?_
    (ix3 g (0 : Fin 1) cc) ?_ ?_
  · show 1 < 5; decide
  · rfl
  · rfl
  · rfl
  · intro b hb
    match b with
    | ⟨0, _⟩ => rfl
    | ⟨1, _⟩ => exact absurd rfl hb
    | ⟨2, _⟩ => rfl
  · show 1 + 0 = 1; rfl

/-- Row 2 of the stack is the third stacked buffer. -/
theorem stack_row2 (c : Dev nD) (g : Fin 8) (cc : Fin 512) :
    (entry m c main_v24 : S8x5x1x512.Idx → EReal) (ix4 g (2 : Fin 5) (0 : Fin 1) cc)
      = (entry m c main_v20 : S8x1x512.Idx → EReal) (ix3 g (0 : Fin 1) cc) := by
  have hR : (entry m c main_v20 : S8x1x512.Idx → EReal)
      = StableHlo.after (hostOps0.take 25) (fun b => m (c, b)) (Proc.devRef .tc main_v20) := by
    dsimp only [entry, hostOps0, List.take]
    simp only [after_cons, after_nil]
    rw [unary_result_ne, nary_result_ne] <;> decide
  rw [hR]
  dsimp only [entry, hostOps0, List.take]
  simp only [after_cons, after_nil]
  rw [unary_result]
  refine (broadcastInDim_apply _ bcast_S8x5x512_S8x5x1x512_0_1_3 _ (ix4 g (2 : Fin 5) (0 : Fin 1) cc)
    (ix3 g (2 : Fin 5) cc) (fun b => ?_)).trans ?_
  · match b with
    | ⟨0, _⟩ => show g.val = if (8 : Nat) = 1 then 0 else g.val; rw [if_neg (by decide)]
    | ⟨1, _⟩ => show (2 : Nat) = if (5 : Nat) = 1 then 0 else 2; rw [if_neg (by decide)]
    | ⟨2, _⟩ => show cc.val = if (512 : Nat) = 1 then 0 else cc.val; rw [if_neg (by decide)]
  rw [nary5_result_fn (x := main_v18) (a := main_v19) (b := main_v20) (c := main_v21) (e := main_v22) (y := main_v23)
    (g := fun a0 a1 a2 a3 a4 => concatenate S8x5x512 1
      [⟨S8x1x512, a0⟩, ⟨S8x1x512, a1⟩, ⟨S8x1x512, a2⟩, ⟨S8x1x512, a3⟩, ⟨S8x1x512, a4⟩]
      concatenates_S8x1x512_S8x1x512_S8x1x512_S8x1x512_S8x1x512_S8x5x512_d1)]
  refine concatenate_apply_piece (1 : Fin 3) _ _ (ix3 g (2 : Fin 5) cc) 2 ?_ S8x1x512 _ ?_ ?_ 2 ?_
    (ix3 g (0 : Fin 1) cc) ?_ ?_
  · show 2 < 5; decide
  · rfl
  · rfl
  · rfl
  · intro b hb
    match b with
    | ⟨0, _⟩ => rfl
    | ⟨1, _⟩ => exact absurd rfl hb
    | ⟨2, _⟩ => rfl
  · show 2 + 0 = 2; rfl

/-- Row 3 of the stack is the fourth stacked buffer. -/
theorem stack_row3 (c : Dev nD) (g : Fin 8) (cc : Fin 512) :
    (entry m c main_v24 : S8x5x1x512.Idx → EReal) (ix4 g (3 : Fin 5) (0 : Fin 1) cc)
      = (entry m c main_v21 : S8x1x512.Idx → EReal) (ix3 g (0 : Fin 1) cc) := by
  have hR : (entry m c main_v21 : S8x1x512.Idx → EReal)
      = StableHlo.after (hostOps0.take 25) (fun b => m (c, b)) (Proc.devRef .tc main_v21) := by
    dsimp only [entry, hostOps0, List.take]
    simp only [after_cons, after_nil]
    rw [unary_result_ne, nary_result_ne] <;> decide
  rw [hR]
  dsimp only [entry, hostOps0, List.take]
  simp only [after_cons, after_nil]
  rw [unary_result]
  refine (broadcastInDim_apply _ bcast_S8x5x512_S8x5x1x512_0_1_3 _ (ix4 g (3 : Fin 5) (0 : Fin 1) cc)
    (ix3 g (3 : Fin 5) cc) (fun b => ?_)).trans ?_
  · match b with
    | ⟨0, _⟩ => show g.val = if (8 : Nat) = 1 then 0 else g.val; rw [if_neg (by decide)]
    | ⟨1, _⟩ => show (3 : Nat) = if (5 : Nat) = 1 then 0 else 3; rw [if_neg (by decide)]
    | ⟨2, _⟩ => show cc.val = if (512 : Nat) = 1 then 0 else cc.val; rw [if_neg (by decide)]
  rw [nary5_result_fn (x := main_v18) (a := main_v19) (b := main_v20) (c := main_v21) (e := main_v22) (y := main_v23)
    (g := fun a0 a1 a2 a3 a4 => concatenate S8x5x512 1
      [⟨S8x1x512, a0⟩, ⟨S8x1x512, a1⟩, ⟨S8x1x512, a2⟩, ⟨S8x1x512, a3⟩, ⟨S8x1x512, a4⟩]
      concatenates_S8x1x512_S8x1x512_S8x1x512_S8x1x512_S8x1x512_S8x5x512_d1)]
  refine concatenate_apply_piece (1 : Fin 3) _ _ (ix3 g (3 : Fin 5) cc) 3 ?_ S8x1x512 _ ?_ ?_ 3 ?_
    (ix3 g (0 : Fin 1) cc) ?_ ?_
  · show 3 < 5; decide
  · rfl
  · rfl
  · rfl
  · intro b hb
    match b with
    | ⟨0, _⟩ => rfl
    | ⟨1, _⟩ => exact absurd rfl hb
    | ⟨2, _⟩ => rfl
  · show 3 + 0 = 3; rfl

/-- Row 4 of the stack is the fifth stacked buffer. -/
theorem stack_row4 (c : Dev nD) (g : Fin 8) (cc : Fin 512) :
    (entry m c main_v24 : S8x5x1x512.Idx → EReal) (ix4 g (4 : Fin 5) (0 : Fin 1) cc)
      = (entry m c main_v22 : S8x1x512.Idx → EReal) (ix3 g (0 : Fin 1) cc) := by
  have hR : (entry m c main_v22 : S8x1x512.Idx → EReal)
      = StableHlo.after (hostOps0.take 25) (fun b => m (c, b)) (Proc.devRef .tc main_v22) := by
    dsimp only [entry, hostOps0, List.take]
    simp only [after_cons, after_nil]
    rw [unary_result_ne, nary_result_ne] <;> decide
  rw [hR]
  dsimp only [entry, hostOps0, List.take]
  simp only [after_cons, after_nil]
  rw [unary_result]
  refine (broadcastInDim_apply _ bcast_S8x5x512_S8x5x1x512_0_1_3 _ (ix4 g (4 : Fin 5) (0 : Fin 1) cc)
    (ix3 g (4 : Fin 5) cc) (fun b => ?_)).trans ?_
  · match b with
    | ⟨0, _⟩ => show g.val = if (8 : Nat) = 1 then 0 else g.val; rw [if_neg (by decide)]
    | ⟨1, _⟩ => show (4 : Nat) = if (5 : Nat) = 1 then 0 else 4; rw [if_neg (by decide)]
    | ⟨2, _⟩ => show cc.val = if (512 : Nat) = 1 then 0 else cc.val; rw [if_neg (by decide)]
  rw [nary5_result_fn (x := main_v18) (a := main_v19) (b := main_v20) (c := main_v21) (e := main_v22) (y := main_v23)
    (g := fun a0 a1 a2 a3 a4 => concatenate S8x5x512 1
      [⟨S8x1x512, a0⟩, ⟨S8x1x512, a1⟩, ⟨S8x1x512, a2⟩, ⟨S8x1x512, a3⟩, ⟨S8x1x512, a4⟩]
      concatenates_S8x1x512_S8x1x512_S8x1x512_S8x1x512_S8x1x512_S8x5x512_d1)]
  refine concatenate_apply_piece (1 : Fin 3) _ _ (ix3 g (4 : Fin 5) cc) 4 ?_ S8x1x512 _ ?_ ?_ 4 ?_
    (ix3 g (0 : Fin 1) cc) ?_ ?_
  · show 4 < 5; decide
  · rfl
  · rfl
  · rfl
  · intro b hb
    match b with
    | ⟨0, _⟩ => rfl
    | ⟨1, _⟩ => exact absurd rfl hb
    | ⟨2, _⟩ => rfl
  · show 4 + 0 = 4; rfl

end Cert.KernelIdeal.HostValue

end
-- ==== Proof.PreDecode.lean ====
/-
  What the precondition gives the proof: its last conjunct says that the fifth entry of every gathered row — the β that
  the reference divides the softplus by — is not zero. The conjunct is printed over the same gather, slice and reshape
  the kernel's host side applies, so it is read off as a fact about `gathered … (g, c, 4)` directly; the finiteness
  conjuncts are not used.
-/
import proofs.«146256_j45406394253469_2_alg».proof.Defs
import proofs.«146256_j45406394253469_2_alg».proof.Proof.Gen.Pre_finite_inputs
import proofs.«146256_j45406394253469_2_alg».proof.Proof.HostParams
import Idealize.ShloMosaic.Lib.ReduceAll
import Idealize.ShloMosaic.Lib.Affine
import Idealize.ShloMosaic.PureOps.Ideal.Laws

noncomputable section

namespace Cert.KernelIdeal.HostValue

open Cert.KernelIdeal Cert.KernelIdeal.Gen Idealize.ShloMosaic Idealize.ShloMosaic.ValueIdx
open Idealize.ShloMosaic.TcCoe Idealize.SL.Sem

instance : Subsingleton Cert.Pre_finite_inputs.S_.Idx := ⟨fun a b => funext fun d => d.elim0⟩

/-- Under the precondition every gathered row's fifth entry is nonzero. -/
theorem divisor_ne_zero (m : (ℓ : Loc nD τ sig) → Buf (Elt Ideal) ℓ) (h : Cert.Pre_KernelIdeal m) (c : Dev nD)
    (g : Fin 8) (cc : Fin 512) :
    gathered (m ((c.tc : Thread nD τ).loc main_arg1)) (m ((c.tc : Thread nD τ).loc main_arg2)) (ix3 g cc (4 : Fin 5)) ≠ 0 := by
  have h0 := congrFun (h c) ix0
  dsimp only [Cert.Pre_finite_inputs.fn, Cert.Pre_finite_inputs.fn_part1] at h0
  have h1 := (IntOp.andi_eq_one.mp h0).2
  have h2 := Host.reduce_andi_all _ _ _ _ _ h1 (ix2 g cc)
  have h3 : Ideal.cmp .une
      (column (gathered (m ((c.tc : Thread nD τ).loc main_arg1)) (m ((c.tc : Thread nD τ).loc main_arg2))) 4
        slices_S8x512x5_S8x512x1_0_0_4 (ix2 g cc)) (Ideal.ofBits .f32 0x00000000#32) = 1#1 := h2
  rw [column_apply _ 4 (by decide), Ideal.ofBits_zero_f32] at h3
  intro e
  change Ideal.cmp CmpFPredicate.une (gathered _ _ (ix3 g cc (4 : Fin 5))) 0 = 1#1 at h3
  rw [e] at h3
  simp [Ideal.cmp] at h3

end Cert.KernelIdeal.HostValue

end
-- ==== Proof.KernelResult.lean ====
/-
  The kernel's result as a function of its arguments. The region finds z as launched and the parameter array at the stack
  of the gathered rows' columns, row 1 already divided by row 4; so at element (g, n, r, c) the result array holds
      outQ(z; E[g,c,0], E[g,c,1] / E[g,c,4], E[g,c,2], E[g,c,3], E[g,c,4]),
  and since the precondition keeps E[g,c,4] off zero, that is the other arrangement of the same number,
      outS(z; E[g,c,0], E[g,c,1], E[g,c,2], E[g,c,3], E[g,c,4]).
-/
import proofs.«146256_j45406394253469_2_alg».proof.Proof.ArrayValue
import proofs.«146256_j45406394253469_2_alg».proof.Proof.HostParams
import proofs.«146256_j45406394253469_2_alg».proof.Proof.PreDecode

noncomputable section

namespace Cert.KernelIdeal.ArrayValue

open Cert.KernelIdeal Cert.KernelIdeal.Gen Cert.KernelIdeal.Region Cert.KernelIdeal.HostValue
open Idealize.ShloMosaic Idealize.ShloMosaic.TcCoe Idealize.ShloMosaic.ValueIdx Idealize.SL.Sem Cert.AffineSoftplus

variable (m : (ℓ : Loc nD τ sig) → Buf (Elt Ideal) ℓ)

theorem param_e0 (c : Dev nD) (g : Fin 8) (cc : Fin 512) :
    (entry m c main_v24 : S8x5x1x512.Idx → EReal) (ix4 g (0 : Fin 5) (0 : Fin 1) cc) = (gathered (m ((c.tc : Thread nD τ).loc main_arg1)) (m ((c.tc : Thread nD τ).loc main_arg2))) (ix3 g cc (0 : Fin 5)) := by
  rw [stack_row0, entry_row0, asRow_apply, column_apply _ 0 (by decide)]
  rfl
theorem param_q (c : Dev nD) (g : Fin 8) (cc : Fin 512) :
    (entry m c main_v24 : S8x5x1x512.Idx → EReal) (ix4 g (1 : Fin 5) (0 : Fin 1) cc)
      = Ideal.div ((gathered (m ((c.tc : Thread nD τ).loc main_arg1)) (m ((c.tc : Thread nD τ).loc main_arg2))) (ix3 g cc (1 : Fin 5))) ((gathered (m ((c.tc : Thread nD τ).loc main_arg1)) (m ((c.tc : Thread nD τ).loc main_arg2))) (ix3 g cc (4 : Fin 5))) := by
  rw [stack_row1, entry_row1, asRow_apply]
  show Ideal.div (column _ 1 _ (ix2 g cc)) (column _ 4 _ (ix2 g cc)) = _
  rw [column_apply _ 1 (by decide), column_apply _ 4 (by decide)]
  rfl
theorem param_e2 (c : Dev nD) (g : Fin 8) (cc : Fin 512) :
    (entry m c main_v24 : S8x5x1x512.Idx → EReal) (ix4 g (2 : Fin 5) (0 : Fin 1) cc) = (gathered (m ((c.tc : Thread nD τ).loc main_arg1)) (m ((c.tc : Thread nD τ).loc main_arg2))) (ix3 g cc (2 : Fin 5)) := by
  rw [stack_row2, entry_row2, asRow_apply, column_apply _ 2 (by decide)]
  rfl
theorem param_e3 (c : Dev nD) (g : Fin 8) (cc : Fin 512) :
    (entry m c main_v24 : S8x5x1x512.Idx → EReal) (ix4 g (3 : Fin 5) (0 : Fin 1) cc) = (gathered (m ((c.tc : Thread nD τ).loc main_arg1)) (m ((c.tc : Thread nD τ).loc main_arg2))) (ix3 g cc (3 : Fin 5)) := by
  rw [stack_row3, entry_row3, asRow_apply, column_apply _ 3 (by decide)]
  rfl
theorem param_beta (c : Dev nD) (g : Fin 8) (cc : Fin 512) :
    (entry m c main_v24 : S8x5x1x512.Idx → EReal) (ix4 g (4 : Fin 5) (0 : Fin 1) cc) = (gathered (m ((c.tc : Thread nD τ).loc main_arg1)) (m ((c.tc : Thread nD τ).loc main_arg2))) (ix3 g cc (4 : Fin 5)) := by
  rw [stack_row4, entry_row4, asRow_apply, column_apply _ 4 (by decide)]
  rfl

/-- The result as a function of z and the gathered rows, in the arrangement that divides the softplus. -/
def result (z : S8x32x256x512.Idx → EReal) (E : S8x512x5.Idx → EReal) : S8x32x256x512.Idx → EReal := fun i =>
  outS (z i) (E (ix3 (i 0) (i 3) (0 : Fin 5))) (E (ix3 (i 0) (i 3) (1 : Fin 5))) (E (ix3 (i 0) (i 3) (2 : Fin 5)))
    (E (ix3 (i 0) (i 3) (3 : Fin 5))) (E (ix3 (i 0) (i 3) (4 : Fin 5)))

/-- Under the precondition, what the region computes from what it finds is `result` of the launched arguments. -/
theorem whole_eq_result (h : Cert.Pre_KernelIdeal m) (c : Dev nD) :
    whole (entry m c main_arg0) (entry m c main_v24)
      = result (m ((c.tc : Thread nD τ).loc main_arg0)) (gathered (m ((c.tc : Thread nD τ).loc main_arg1)) (m ((c.tc : Thread nD τ).loc main_arg2))) := by
  funext i
  obtain ⟨g, n, r, cc, rfl⟩ : ∃ (g : Fin 8) (n : Fin 32) (r : Fin 256) (cc : Fin 512), i = ix4 g n r cc :=
    ⟨i 0, i 1, i 2, i 3, eq_ix4 i⟩
  show outQ (entry m c main_arg0 (ix4 g n r cc))
      ((entry m c main_v24 : S8x5x1x512.Idx → EReal) (ix4 g (0 : Fin 5) (0 : Fin 1) cc))
      ((entry m c main_v24 : S8x5x1x512.Idx → EReal) (ix4 g (1 : Fin 5) (0 : Fin 1) cc))
      ((entry m c main_v24 : S8x5x1x512.Idx → EReal) (ix4 g (2 : Fin 5) (0 : Fin 1) cc))
      ((entry m c main_v24 : S8x5x1x512.Idx → EReal) (ix4 g (3 : Fin 5) (0 : Fin 1) cc))
      ((entry m c main_v24 : S8x5x1x512.Idx → EReal) (ix4 g (4 : Fin 5) (0 : Fin 1) cc)) = _
  rw [param_e0, param_q, param_e2, param_e3, param_beta, entry_z]
  exact outQ_div_eq_outS (divisor_ne_zero m h c g cc) _ _ _ _ _

/-- The idealized kernel's run, read: under the precondition every weakly fair execution terminates with the result
    array at `result` of the launched z and of the rows the mask gathers from the launched table, the three arguments unchanged. -/
theorem run (ρ : Dev nD → PrngReg) (h : Cert.Pre_KernelIdeal m) :
    θ_run defs (onTc (τ := τ) (main (F := Ideal))) ⟨m, fun _ => 0, ρ⟩ (fun r => ∀ c : Dev nD,
      r.2.mem ((c.tc : Thread nD τ).loc main_v25) = result (m ((c.tc : Thread nD τ).loc main_arg0)) (gathered (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r hr c =>
    ⟨((hr c).1 2).trans ((result_array m c).trans (whole_eq_result m h c)),
      ((hr c).1 0).trans (((dats m 0 c).arrAt_in 0 rfl _).trans ((arrays_entry m c 0).trans (entry_z m c))),
      ((hr c).2 main_arg1 (Pipeline.mem_restRefs_of main_arg1 (by decide) (by decide))).trans (entry_mask m c),
      ((hr c).2 main_arg2 (Pipeline.mem_restRefs_of main_arg2 (by decide) (by decide))).trans (entry_table m c)⟩)
    (run_main m ρ)

end Cert.KernelIdeal.ArrayValue

end
-- ==== Proof.RefValue.lean ====
/-
  The reference, read at one element. It gathers the same rows E[g, c, ·] of the table, spreads each of the five
  parameters over the [8, 32, 256, 512] array, and computes elementwise
      e0 · (z − e2) + e1 · (softplus(β · (z − e2)) / β) + e3
  with (e0, e1, e2, e3, β) = E[g, c, 0 … 4] at element (g, n, r, c): `outS`.
-/
import proofs.«146256_j45406394253469_2_alg».proof.Proof.Gen.ReferenceIdeal.Read
import proofs.«146256_j45406394253469_2_alg».proof.Proof.Spec
import Idealize.ShloMosaic.Lib.ValueIdx
import Idealize.ShloMosaic.Lib.Pipeline.Value

noncomputable section

namespace Cert.ReferenceIdeal.RefValue

open Cert.ReferenceIdeal Cert.ReferenceIdeal.Read Idealize.ShloMosaic Idealize.ShloMosaic.ValueIdx Cert.AffineSoftplus

/-- Parameter 0 of a group and channel, as the host keeps it ([8, 1, 1, 512]), is entry 0 of the gathered row. -/
theorem param0 (x1 : (⟨S8x512, .i32⟩ : BufTy).Contents (Elt Ideal)) (x2 : (⟨S13x5, .f32⟩ : BufTy).Contents (Elt Ideal)) (j : S8x1x1x512.Idx) :
    val_main_v9 (F := Ideal) x1 x2 j = val_main_v6 (F := Ideal) x1 x2 (ix3 (j 0) (j 3) (0 : Fin 5)) := by
  rw [val_main_v9_apply, val_main_v8_apply, val_main_v7_apply]
  refine congrArg (val_main_v6 (F := Ideal) x1 x2) (funext fun a => Fin.ext ?_)
  have h0 : (j 0).val < 8 := (j 0).isLt
  have h1 : (j 1).val < 1 := (j 1).isLt
  have h2 : (j 2).val < 1 := (j 2).isLt
  have h3 : (j 3).val < 512 := (j 3).isLt
  match a with
  | ⟨0, _⟩ => show ((((j 0).val * 1 + (j 1).val) * 1 + (j 2).val) * 512 + (j 3).val) / 512 = (j 0).val; omega
  | ⟨1, _⟩ => show ((((j 0).val * 1 + (j 1).val) * 1 + (j 2).val) * 512 + (j 3).val) / 1 % 512 = (j 3).val; omega
  | ⟨2, _⟩ => show (0 : Nat) = 0; rfl

/-- Parameter 1 of a group and channel, as the host keeps it ([8, 1, 1, 512]), is entry 1 of the gathered row. -/
theorem param1 (x1 : (⟨S8x512, .i32⟩ : BufTy).Contents (Elt Ideal)) (x2 : (⟨S13x5, .f32⟩ : BufTy).Contents (Elt Ideal)) (j : S8x1x1x512.Idx) :
    val_main_v11 (F := Ideal) x1 x2 j = val_main_v6 (F := Ideal) x1 x2 (ix3 (j 0) (j 3) (1 : Fin 5)) := by
  rw [val_main_v11_apply, val_main_v10_apply, val_main_v7_apply]
  refine congrArg (val_main_v6 (F := Ideal) x1 x2) (funext fun a => Fin.ext ?_)
  have h0 : (j 0).val < 8 := (j 0).isLt
  have h1 : (j 1).val < 1 := (j 1).isLt
  have h2 : (j 2).val < 1 := (j 2).isLt
  have h3 : (j 3).val < 512 := (j 3).isLt
  match a with
  | ⟨0, _⟩ => show ((((j 0).val * 1 + (j 1).val) * 1 + (j 2).val) * 512 + (j 3).val) / 512 = (j 0).val; omega
  | ⟨1, _⟩ => show ((((j 0).val * 1 + (j 1).val) * 1 + (j 2).val) * 512 + (j 3).val) / 1 % 512 = (j 3).val; omega
  | ⟨2, _⟩ => show 1 + 0 = 1; rfl

/-- Parameter 2 of a group and channel, as the host keeps it ([8, 1, 1, 512]), is entry 2 of the gathered row. -/
theorem param2 (x1 : (⟨S8x512, .i32⟩ : BufTy).Contents (Elt Ideal)) (x2 : (⟨S13x5, .f32⟩ : BufTy).Contents (Elt Ideal)) (j : S8x1x1x512.Idx) :
    val_main_v13 (F := Ideal) x1 x2 j = val_main_v6 (F := Ideal) x1 x2 (ix3 (j 0) (j 3) (2 : Fin 5)) := by
  rw [val_main_v13_apply, val_main_v12_apply, val_main_v7_apply]
  refine congrArg (val_main_v6 (F := Ideal) x1 x2) (funext fun a => Fin.ext ?_)
  have h0 : (j 0).val < 8 := (j 0).isLt
  have h1 : (j 1).val < 1 := (j 1).isLt
  have h2 : (j 2).val < 1 := (j 2).isLt
  have h3 : (j 3).val < 512 := (j 3).isLt
  match a with
  | ⟨0, _⟩ => show ((((j 0).val * 1 + (j 1).val) * 1 + (j 2).val) * 512 + (j 3).val) / 512 = (j 0).val; omega
  | ⟨1, _⟩ => show ((((j 0).val * 1 + (j 1).val) * 1 + (j 2).val) * 512 + (j 3).val) / 1 % 512 = (j 3).val; omega
  | ⟨2, _⟩ => show 2 + 0 = 2; rfl

/-- Parameter 3 of a group and channel, as the host keeps it ([8, 1, 1, 512]), is entry 3 of the gathered row. -/
theorem param3 (x1 : (⟨S8x512, .i32⟩ : BufTy).Contents (Elt Ideal)) (x2 : (⟨S13x5, .f32⟩ : BufTy).Contents (Elt Ideal)) (j : S8x1x1x512.Idx) :
    val_main_v15 (F := Ideal) x1 x2 j = val_main_v6 (F := Ideal) x1 x2 (ix3 (j 0) (j 3) (3 : Fin 5)) := by
  rw [val_main_v15_apply, val_main_v14_apply, val_main_v7_apply]
  refine congrArg (val_main_v6 (F := Ideal) x1 x2) (funext fun a => Fin.ext ?_)
  have h0 : (j 0).val < 8 := (j 0).isLt
  have h1 : (j 1).val < 1 := (j 1).isLt
  have h2 : (j 2).val < 1 := (j 2).isLt
  have h3 : (j 3).val < 512 := (j 3).isLt
  match a with
  | ⟨0, _⟩ => show ((((j 0).val * 1 + (j 1).val) * 1 + (j 2).val) * 512 + (j 3).val) / 512 = (j 0).val; omega
  | ⟨1, _⟩ => show ((((j 0).val * 1 + (j 1).val) * 1 + (j 2).val) * 512 + (j 3).val) / 1 % 512 = (j 3).val; omega
  | ⟨2, _⟩ => show 3 + 0 = 3; rfl

/-- Parameter 4 of a group and channel, as the host keeps it ([8, 1, 1, 512]), is entry 4 of the gathered row. -/
theorem param4 (x1 : (⟨S8x512, .i32⟩ : BufTy).Contents (Elt Ideal)) (x2 : (⟨S13x5, .f32⟩ : BufTy).Contents (Elt Ideal)) (j : S8x1x1x512.Idx) :
    val_main_v17 (F := Ideal) x1 x2 j = val_main_v6 (F := Ideal) x1 x2 (ix3 (j 0) (j 3) (4 : Fin 5)) := by
  rw [val_main_v17_apply, val_main_v16_apply, val_main_v7_apply]
  refine congrArg (val_main_v6 (F := Ideal) x1 x2) (funext fun a => Fin.ext ?_)
  have h0 : (j 0).val < 8 := (j 0).isLt
  have h1 : (j 1).val < 1 := (j 1).isLt
  have h2 : (j 2).val < 1 := (j 2).isLt
  have h3 : (j 3).val < 512 := (j 3).isLt
  match a with
  | ⟨0, _⟩ => show ((((j 0).val * 1 + (j 1).val) * 1 + (j 2).val) * 512 + (j 3).val) / 512 = (j 0).val; omega
  | ⟨1, _⟩ => show ((((j 0).val * 1 + (j 1).val) * 1 + (j 2).val) * 512 + (j 3).val) / 1 % 512 = (j 3).val; omega
  | ⟨2, _⟩ => show 4 + 0 = 4; rfl

/-- Where element `i` of the result finds entry `k` of its group's and channel's gathered row. -/
abbrev rowOf (i : S8x32x256x512.Idx) (k : Fin 5) : S8x512x5.Idx := ix3 (i 0) (i 3) k

/-- The reference's result at element `i`. -/
theorem result_apply (x0 : (⟨S8x32x256x512, .f32⟩ : BufTy).Contents (Elt Ideal)) (x1 : (⟨S8x512, .i32⟩ : BufTy).Contents (Elt Ideal))
    (x2 : (⟨S13x5, .f32⟩ : BufTy).Contents (Elt Ideal)) (i : S8x32x256x512.Idx) :
    (val_main_v31 (F := Ideal) x0 x1 x2 i : EReal)
      = outS (x0 i) (val_main_v6 (F := Ideal) x1 x2 (rowOf i 0)) (val_main_v6 (F := Ideal) x1 x2 (rowOf i 1))
          (val_main_v6 (F := Ideal) x1 x2 (rowOf i 2)) (val_main_v6 (F := Ideal) x1 x2 (rowOf i 3))
          (val_main_v6 (F := Ideal) x1 x2 (rowOf i 4)) := by
  simp only [val_main_v31_apply, val_main_v29_apply, val_main_v26_apply, val_main_v28_apply, val_main_v24_apply,
    val_main_v22_apply, val_main_call0_v4_apply, val_main_call0_v6_apply, val_main_call0_v11_apply,
    val_main_call0_v1_apply, val_main_call0_v10_apply, val_main_call0_v9_apply, val_main_call0_v8_apply,
    val_main_call0_v7_apply, val_main_call0_v3_apply, val_main_call0_v0_apply, val_main_call0_v2_apply,
    val_main_call0_v5_apply, val_main_call0_cst_apply, val_main_v21_apply, val_main_v19_apply,
    val_main_v18_apply, val_main_v20_apply, val_main_v23_apply, val_main_v25_apply, val_main_v27_apply, val_main_v30_apply,
    param0, param1, param2, param3, param4,
    Ideal.mulf_def, Ideal.addf_def, Ideal.subf_def, Ideal.maximumf_def, Ideal.hostDivf_def, Ideal.hostUnary_exp_def,
    Ideal.hostUnary_log1p_def, Ideal.hostAbsf_def, Ideal.hostNegf_def, Ideal.negf_def, Ideal.absf_def,
    Ideal.cmpf_def, Ideal.ofBits_def, Ideal.ofBits_zero_f32]
  rw [guarded_neg]
  rfl

end Cert.ReferenceIdeal.RefValue

end
-- ==== Proof.lean ====
/-
  The kernel computes, for every element z of channel c of group g,
      e0 · (z − e2) + (e1 / β) · softplus(β · (z − e2)) + e3,
  where (e0, e1, e2, e3, β) is the row of the fault-mode table that the mask names for (g, c), and the reference computes
      e0 · (z − e2) + e1 · (softplus(β · (z − e2)) / β) + e3.
  At the ideal instance both programs gather the same rows, and for β ≠ 0 — the precondition's last conjunct, the domain
  of the reference's own division — the two are one extended real: (e1 · β⁻¹) · s = e1 · (s · β⁻¹) by associativity and
  commutativity of the product, with no appeal to finiteness.

  The three frames: each kernel program is host operations and one region whose body, at every grid point, loads its two
  input blocks and stores one function of them (Proof/RegionBits.lean, Proof/RegionIdeal.lean: one text at the two
  instances); the reference is host operations only. The idealization rewrote nothing, so there is nothing to preserve.
  The value: Proof/Spec.lean (the scalar mathematics), BodyValue.lean (the body at one element), ArrayValue.lean (blocks to
  the whole array), HostParams.lean (the parameter array the host stacks), PreDecode.lean (β ≠ 0 from the precondition),
  KernelResult.lean (the kernel's run read as a function of the arguments), RefValue.lean (the reference at one element).
-/
import proofs.«146256_j45406394253469_2_alg».proof.Defs
import proofs.«146256_j45406394253469_2_alg».proof.Proof.Gen.Kernel
import proofs.«146256_j45406394253469_2_alg».proof.Proof.Gen.KernelIdeal
import proofs.«146256_j45406394253469_2_alg».proof.Proof.Gen.ReferenceIdeal
import proofs.«146256_j45406394253469_2_alg».proof.Proof.Gen.Pre_finite_inputs
import proofs.«146256_j45406394253469_2_alg».proof.Proof.Gen.ReferenceIdeal.Run
import proofs.«146256_j45406394253469_2_alg».proof.Proof.Gen.ReferenceIdeal.Read
import proofs.«146256_j45406394253469_2_alg».proof.Proof.RegionBits
import proofs.«146256_j45406394253469_2_alg».proof.Proof.RegionIdeal
import proofs.«146256_j45406394253469_2_alg».proof.Proof.KernelResult
import proofs.«146256_j45406394253469_2_alg».proof.Proof.RefValue

noncomputable section

namespace Cert.Proof

open Idealize.ShloMosaic Idealize.ShloMosaic.TcCoe Idealize.SL.Sem

theorem frame_kernel : Cert.frame_Kernel := fun m ρ _ => Cert.Kernel.Region.frame m ρ

theorem frame_kernel_ideal : Cert.frame_KernelIdeal := fun m ρ _ => Cert.KernelIdeal.Region.frame m ρ

/-- The reference is host operations only: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Both programs gather by the same operations: the same rows of the table. -/
theorem gathers_agree (x1 : IVec Cert.KernelIdeal.S8x512 32) (x2 : FVec Ideal Cert.KernelIdeal.S13x5 .f32) :
    Cert.ReferenceIdeal.Read.val_main_v6 (F := Ideal) x1 x2 = Cert.KernelIdeal.HostValue.gathered x1 x2 := rfl

/-- From memories that agree on the arguments the two idealized programs end with the same result array:
    `result` of z and the gathered rows. -/
theorem algebraic : Cert.algebraic_KernelIdeal_ReferenceIdeal := by
  intro m ρ m' ρ' hpre hagree
  refine ⟨_, Cert.KernelIdeal.ArrayValue.run m ρ hpre, ?_⟩
  refine (θ_run Cert.ReferenceIdeal.defs _ _).mono (fun r h c => ⟨?_, (h c).2⟩)
    (Cert.ReferenceIdeal.Value.run (F := Ideal) m' ρ')
  rw [(h c).1, Cert.ReferenceIdeal.Read.val_main_v31_eq, (hagree c).1, (hagree c).2.1, (hagree c).2.2]
  funext i
  rw [Cert.ReferenceIdeal.RefValue.result_apply, gathers_agree]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
